-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x256 : Shape := ⟨3, ![1024, 256, 256]⟩
abbrev S1x1x256 : Shape := ⟨3, ![1, 1, 256]⟩
abbrev S1024 : Shape := ⟨1, ![1024]⟩
abbrev S_ : Shape := ⟨0, ![]⟩

class Facts : Prop where
  bcast_S_S1024x256x256 : S_.BroadcastsInDim S1024x256x256 (![] : Fin 0 → Fin S1024x256x256.rank)
  reducesTo_S1024x256x256_S_d0_1_2 : S1024x256x256.ReducesTo [0, 1, 2] S_
  h_S_ : 0 < S_.numel
  bcast_S_S1x1x256 : S_.BroadcastsInDim S1x1x256 (![] : Fin 0 → Fin S1x1x256.rank)
  reducesTo_S1x1x256_S_d0_1_2 : S1x1x256.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  main_v17

def fn {F : FTy → Type} [FloatOps F] (main_arg0 : FVec F S1024x256x256 .f32) (main_arg1 : FVec F S1024x256x256 .f32) (main_arg2 : FVec F S1x1x256 .f32) (main_arg3 : IVec S1024 32) : IVec S_ 1 :=
  let main_v0 : FVec F S1024x256x256 .f32 := Host.absf main_arg0
  let main_cst : FVec F S_ .f32 := constant S_ .f32 0x7F800000#32
  let main_v1 : FVec F S1024x256x256 .f32 := broadcastInDim S1024x256x256 ![] bcast_S_S1024x256x256 main_cst
  let main_v2 : IVec S1024x256x256 1 := cmpf .olt main_v0 main_v1
  let main_c : IVec S_ 1 := constantI S_ 1 1#1
  let main_v3 : IVec S_ 1 := (fun x v => Host.reduce IntOp.andi x v reducesTo_S1024x256x256_S_d0_1_2 h_S_) main_v2 main_c
  let main_v4 : FVec F S1024x256x256 .f32 := Host.absf main_arg1
  let main_cst_0 : FVec F S_ .f32 := constant S_ .f32 0x7F800000#32
  let main_v5 : FVec F S1024x256x256 .f32 := broadcastInDim S1024x256x256 ![] bcast_S_S1024x256x256 main_cst_0
  let main_v6 : IVec S1024x256x256 1 := cmpf .olt main_v4 main_v5
  let main_c_1 : IVec S_ 1 := constantI S_ 1 1#1
  let main_v7 : IVec S_ 1 := (fun x v => Host.reduce IntOp.andi x v reducesTo_S1024x256x256_S_d0_1_2 h_S_) main_v6 main_c_1
  let main_v8 : IVec S_ 1 := andi main_v3 main_v7
  let main_v9 : FVec F S1x1x256 .f32 := Host.absf main_arg2
  let main_cst_2 : FVec F S_ .f32 := constant S_ .f32 0x7F800000#32
  let main_v10 : FVec F S1x1x256 .f32 := broadcastInDim S1x1x256 ![] bcast_S_S1x1x256 main_cst_2
  let main_v11 : IVec S1x1x256 1 := cmpf .olt main_v9 main_v10
  let main_c_3 : IVec S_ 1 := constantI S_ 1 1#1
  let main_v12 : IVec S_ 1 := (fun x v => Host.reduce IntOp.andi x v reducesTo_S1x1x256_S_d0_1_2 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg3 main_v14
  let main_c_5 : IVec S_ 1 := constantI S_ 1 1#1
  fn_part1 (F := F) main_v13 main_v15 main_c_5
-- ==== Kernel.lean ====
abbrev S1024x256x256 : Shape := ⟨3, ![1024, 256, 256]⟩
abbrev S1x1x256 : Shape := ⟨3, ![1, 1, 256]⟩
abbrev S1024 : Shape := ⟨1, ![1024]⟩
abbrev S_ : Shape := ⟨0, ![]⟩
abbrev S1x256 : Shape := ⟨2, ![1, 256]⟩
abbrev S8x256x256 : Shape := ⟨3, ![8, 256, 256]⟩
abbrev S2x256x256 : Shape := ⟨3, ![2, 256, 256]⟩
abbrev S2 : Shape := ⟨1, ![2]⟩
abbrev S1 : Shape := ⟨1, ![1]⟩
abbrev S1x256x256 : Shape := ⟨3, ![1, 256, 256]⟩
abbrev S256x256 : Shape := ⟨2, ![256, 256]⟩

abbrev nBuf : Space → Nat
  | .hbm => 13
  | .vmem => 6
  | .smem => 1
  | _ => 0

abbrev bufTy : (tb : Table) → Fin (tcTables nBuf tb) → BufTy
  | .hbm, ⟨0, _⟩ => ⟨S1024x256x256, .f32⟩
  | .hbm, ⟨1, _⟩ => ⟨S1024x256x256, .f32⟩
  | .hbm, ⟨2, _⟩ => ⟨S1x1x256, .f32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1x256, .f32⟩
  | .hbm, ⟨12, _⟩ => ⟨S1024x256x256, .f32⟩
  | .local _ .vmem, ⟨0, _⟩ => ⟨S8x256x256, .f32⟩
  | .local _ .vmem, ⟨1, _⟩ => ⟨S8x256x256, .f32⟩
  | .local _ .vmem, ⟨2, _⟩ => ⟨S1x256, .f32⟩
  | .local _ .vmem, ⟨3, _⟩ => ⟨S8x256x256, .f32⟩
  | .local _ .vmem, ⟨4, _⟩ => ⟨S8x256x256, .f32⟩
  | .local _ .vmem, ⟨5, _⟩ => ⟨S2x256x256, .f32⟩
  | .local _ .smem, ⟨0, _⟩ => ⟨S1024, .i32⟩
  | _, _ => ⟨S1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![v3.toNat, 0, 0]

def k0_chk1 (v3 : BitVec 32) : Prop :=
  (∀ a, (k0_off2 v3) a + S1x256x256.size a ≤ S1024x256x256.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x256x256.size a ≤ S1024x256x256.size a := fun v3 k0_hw1 => k0_hw1

def k0_off3 (i : grid0.Coords) : Fin 1 → Nat :=
  let arg0 : BitVec 32 := BitVec.ofNat 32 (i 0).val
  let c8_i32_14 : BitVec 32 := 8#32
  let v18 : BitVec 32 := Scalar.muli arg0 c8_i32_14
  let c1_i32 : BitVec 32 := 1#32
  let v19 : BitVec 32 := Scalar.addi v18 c1_i32
  let v20 : Index := Scalar.indexCast v19
  ![v20.toNat]
def k0_off4 (v21 : BitVec 32) : Fin 3 → Nat :=
  let c0_i32_19 : BitVec 32 := 0#32
  let c0_i32_20 : BitVec 32 := 0#32
  ![v21.toNat, 0, 0]

def k0_chk2 (v21 : BitVec 32) : Prop :=
  (∀ a, (k0_off4 v21) a + S1x256x256.size a ≤ S1024x256x256.size a)
instance k0_chk2.dec : ∀ (v21 : BitVec 32), Decidable (k0_chk2 v21) := fun v21 => decidable_of_iff' _ (Iff.of_eq (k0_chk2.eq_1 v21))
theorem k0_off4_inb : ∀ (v21 : BitVec 32) (k0_hw2 : k0_chk2 v21), ∀ a, (k0_off4 v21) a + S1x256x256.size a ≤ S1024x256x256.size a := fun v21 k0_hw2 => k0_hw2

def k0_off5 (i : grid0.Coords) : Fin 1 → Nat :=
  let arg0 : BitVec 32 := BitVec.ofNat 32 (i 0).val
  let c8_i32_38 : BitVec 32 := 8#32
  let v49 : BitVec 32 := Scalar.muli arg0 c8_i32_38
  let c2_i32 : BitVec 32 := 2#32
  let v50 : BitVec 32 := Scalar.addi v49 c2_i32
  let v51 : Index := Scalar.indexCast v50
  ![v51.toNat]
def k0_off6 (v52 : BitVec 32) : Fin 3 → Nat :=
  let c0_i32_43 : BitVec 32 := 0#32
  let c0_i32_44 : BitVec 32 := 0#32
  ![v52.toNat, 0, 0]

def k0_chk3 (v52 : BitVec 32) : Prop :=
  (∀ a, (k0_off6 v52) a + S1x256x256.size a ≤ S1024x256x256.size a)
instance k0_chk3.dec : ∀ (v52 : BitVec 32), Decidable (k0_chk3 v52) := fun v52 => decidable_of_iff' _ (Iff.of_eq (k0_chk3.eq_1 v52))
theorem k0_off6_inb : ∀ (v52 : BitVec 32) (k0_hw3 : k0_chk3 v52), ∀ a, (k0_off6 v52) a + S1x256x256.size a ≤ S1024x256x256.size a := fun v52 k0_hw3 => k0_hw3

def k0_off7 (i : grid0.Coords) : Fin 1 → Nat :=
  let arg0 : BitVec 32 := BitVec.ofNat 32 (i 0).val
  let c8_i32_62 : BitVec 32 := 8#32
  let v80 : BitVec 32 := Scalar.muli arg0 c8_i32_62
  let c3_i32 : BitVec 32 := 3#32
  let v81 : BitVec 32 := Scalar.addi v80 c3_i32
  let v82 : Index := Scalar.indexCast v81
  ![v82.toNat]
def k0_off8 (v83 : BitVec 32) : Fin 3 → Nat :=
  let c0_i32_67 : BitVec 32 := 0#32
  let c0_i32_68 : BitVec 32 := 0#32
  ![v83.toNat, 0, 0]

def k0_chk4 (v83 : BitVec 32) : Prop :=
  (∀ a, (k0_off8 v83) a + S1x256x256.size a ≤ S1024x256x256.size a)
instance k0_chk4.dec : ∀ (v83 : BitVec 32), Decidable (k0_chk4 v83) := fun v83 => decidable_of_iff' _ (Iff.of_eq (k0_chk4.eq_1 v83))
theorem k0_off8_inb : ∀ (v83 : BitVec 32) (k0_hw4 : k0_chk4 v83), ∀ a, (k0_off8 v83) a + S1x256x256.size a ≤ S1024x256x256.size a := fun v83 k0_hw4 => k0_hw4

def k0_off9 (i : grid0.Coords) : Fin 1 → Nat :=
  let arg0 : BitVec 32 := BitVec.ofNat 32 (i 0).val
  let c8_i32_86 : BitVec 32 := 8#32
  let v111 : BitVec 32 := Scalar.muli arg0 c8_i32_86
  let c4_i32 : BitVec 32 := 4#32
  let v112 : BitVec 32 := Scalar.addi v111 c4_i32
  let v113 : Index := Scalar.indexCast v112
  ![v113.toNat]
def k0_off10 (v114 : BitVec 32) : Fin 3 → Nat :=
  let c0_i32_91 : BitVec 32 := 0#32
  let c0_i32_92 : BitVec 32 := 0#32
  ![v114.toNat, 0, 0]

def k0_chk5 (v114 : BitVec 32) : Prop :=
  (∀ a, (k0_off10 v114) a + S1x256x256.size a ≤ S1024x256x256.size a)
instance k0_chk5.dec : ∀ (v114 : BitVec 32), Decidable (k0_chk5 v114) := fun v114 => decidable_of_iff' _ (Iff.of_eq (k0_chk5.eq_1 v114))
theorem k0_off10_inb : ∀ (v114 : BitVec 32) (k0_hw5 : k0_chk5 v114), ∀ a, (k0_off10 v114) a + S1x256x256.size a ≤ S1024x256x256.size a := fun v114 k0_hw5 => k0_hw5

def k0_off11 (i : grid0.Coords) : Fin 1 → Nat :=
  let arg0 : BitVec 32 := BitVec.ofNat 32 (i 0).val
  let c8_i32_110 : BitVec 32 := 8#32
  let v142 : BitVec 32 := Scalar.muli arg0 c8_i32_110
  let c5_i32 : BitVec 32 := 5#32
  let v143 : BitVec 32 := Scalar.addi v142 c5_i32
  let v144 : Index := Scalar.indexCast v143
  ![v144.toNat]
def k0_off12 (v145 : BitVec 32) : Fin 3 → Nat :=
  let c0_i32_115 : BitVec 32 := 0#32
  let c0_i32_116 : BitVec 32 := 0#32
  ![v145.toNat, 0, 0]

def k0_chk6 (v145 : BitVec 32) : Prop :=
  (∀ a, (k0_off12 v145) a + S1x256x256.size a ≤ S1024x256x256.size a)
instance k0_chk6.dec : ∀ (v145 : BitVec 32), Decidable (k0_chk6 v145) := fun v145 => decidable_of_iff' _ (Iff.of_eq (k0_chk6.eq_1 v145))
theorem k0_off12_inb : ∀ (v145 : BitVec 32) (k0_hw6 : k0_chk6 v145), ∀ a, (k0_off12 v145) a + S1x256x256.size a ≤ S1024x256x256.size a := fun v145 k0_hw6 => k0_hw6

def k0_off13 (i : grid0.Coords) : Fin 1 → Nat :=
  let arg0 : BitVec 32 := BitVec.ofNat 32 (i 0).val
  let c8_i32_134 : BitVec 32 := 8#32
  let v173 : BitVec 32 := Scalar.muli arg0 c8_i32_134
  let c6_i32 : BitVec 32 := 6#32
  let v174 : BitVec 32 := Scalar.addi v173 c6_i32
  let v175 : Index := Scalar.indexCast v174
  ![v175.toNat]
def k0_off14 (v176 : BitVec 32) : Fin 3 → Nat :=
  let c0_i32_139 : BitVec 32 := 0#32
  let c0_i32_140 : BitVec 32 := 0#32
  ![v176.toNat, 0, 0]

def k0_chk7 (v176 : BitVec 32) : Prop :=
  (∀ a, (k0_off14 v176) a + S1x256x256.size a ≤ S1024x256x256.size a)
instance k0_chk7.dec : ∀ (v176 : BitVec 32), Decidable (k0_chk7 v176) := fun v176 => decidable_of_iff' _ (Iff.of_eq (k0_chk7.eq_1 v176))
theorem k0_off14_inb : ∀ (v176 : BitVec 32) (k0_hw7 : k0_chk7 v176), ∀ a, (k0_off14 v176) a + S1x256x256.size a ≤ S1024x256x256.size a := fun v176 k0_hw7 => k0_hw7

def k0_off15 (i : grid0.Coords) : Fin 1 → Nat :=
  let arg0 : BitVec 32 := BitVec.ofNat 32 (i 0).val
  let c8_i32_158 : BitVec 32 := 8#32
  let v204 : BitVec 32 := Scalar.muli arg0 c8_i32_158
  let c7_i32 : BitVec 32 := 7#32
  let v205 : BitVec 32 := Scalar.addi v204 c7_i32
  let v206 : Index := Scalar.indexCast v205
  ![v206.toNat]
def k0_off16 (v207 : BitVec 32) : Fin 3 → Nat :=
  let c0_i32_163 : BitVec 32 := 0#32
  let c0_i32_164 : BitVec 32 := 0#32
  ![v207.toNat, 0, 0]

def k0_chk8 (v207 : BitVec 32) : Prop :=
  (∀ a, (k0_off16 v207) a + S1x256x256.size a ≤ S1024x256x256.size a)
instance k0_chk8.dec : ∀ (v207 : BitVec 32), Decidable (k0_chk8 v207) := fun v207 => decidable_of_iff' _ (Iff.of_eq (k0_chk8.eq_1 v207))
theorem k0_off16_inb : ∀ (v207 : BitVec 32) (k0_hw8 : k0_chk8 v207), ∀ a, (k0_off16 v207) a + S1x256x256.size a ≤ S1024x256x256.size a := fun v207 k0_hw8 => k0_hw8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1024 : S_.BroadcastsInDim S1024 (![] : Fin 0 → Fin S1024.rank)
  shapeCasts_S1x1x256_S1x256 : S1x1x256.ShapeCasts S1x256
  numel1_S1 : S1.numel = 1
  inb_S2_S1_0 : ∀ a, (![0] : Fin 1 → Nat) a + S1.size a ≤ S2.size a
  squeezes_S1_S_ : S1.Squeezes S_
  inb_S2x256x256_S1x256x256_0_0_0 : ∀ a, (![0, 0, 0] : Fin 3 → Nat) a + S1x256x256.size a ≤ S2x256x256.size a
  squeezes_S1x256x256_S256x256 : S1x256x256.Squeezes S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1024x256x256_S1x256x256_0_0_0 : ∀ a, (![0, 0, 0] : Fin 3 → Nat) a + S1x256x256.size a ≤ S1024x256x256.size a
  inb_S2_S1_1 : ∀ a, (![1] : Fin 1 → Nat) a + S1.size a ≤ S2.size a
  inb_S2x256x256_S1x256x256_1_0_0 : ∀ a, (![1, 0, 0] : Fin 3 → Nat) a + S1x256x256.size a ≤ S2x256x256.size a
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  bitsLt_bf16_f32 : FTy.bits .bf16 < FTy.bits .f32
  broadcasts_S1x256_S256x256 : S1x256.Broadcasts S256x256
  shapeCasts_S256x256_S1x256x256 : S256x256.ShapeCasts S1x256x256
  inb_S8x256x256_S1x256x256_1_0_0 : ∀ a, (![1, 0, 0] : Fin 3 → Nat) a + S1x256x256.size a ≤ S8x256x256.size a
  inb_S8x256x256_S1x256x256_2_0_0 : ∀ a, (![2, 0, 0] : Fin 3 → Nat) a + S1x256x256.size a ≤ S8x256x256.size a
  inb_S8x256x256_S1x256x256_3_0_0 : ∀ a, (![3, 0, 0] : Fin 3 → Nat) a + S1x256x256.size a ≤ S8x256x256.size a
  inb_S8x256x256_S1x256x256_4_0_0 : ∀ a, (![4, 0, 0] : Fin 3 → Nat) a + S1x256x256.size a ≤ S8x256x256.size a
  inb_S8x256x256_S1x256x256_5_0_0 : ∀ a, (![5, 0, 0] : Fin 3 → Nat) a + S1x256x256.size a ≤ S8x256x256.size a
  inb_S8x256x256_S1x256x256_6_0_0 : ∀ a, (![6, 0, 0] : Fin 3 → Nat) a + S1x256x256.size a ≤ S8x256x256.size a
  inb_S8x256x256_S1x256x256_7_0_0 : ∀ a, (![7, 0, 0] : Fin 3 → Nat) a + S1x256x256.size a ≤ S8x256x256.size a
  dot_S256x256_S256x256_S256x256_1_0_0_1_n_n_wf : DotDims.WF S256x256 S256x256 S256x256 [1] [0] [0] [1] [] []
  hcc0_scratch1 : 5 + S2.numel ≤ 7
  hrank0 : 0 < grid0.rank
  k0_off1_inb : ∀ i : grid0.Coords, ∀ a, (k0_off1 i) a + S1.size a ≤ S1024.size a
  k0_off3_inb : ∀ i : grid0.Coords, ∀ a, (k0_off3 i) a + S1.size a ≤ S1024.size a
  k0_off5_inb : ∀ i : grid0.Coords, ∀ a, (k0_off5 i) a + S1.size a ≤ S1024.size a
  k0_off7_inb : ∀ i : grid0.Coords, ∀ a, (k0_off7 i) a + S1.size a ≤ S1024.size a
  k0_off9_inb : ∀ i : grid0.Coords, ∀ a, (k0_off9 i) a + S1.size a ≤ S1024.size a
  k0_off11_inb : ∀ i : grid0.Coords, ∀ a, (k0_off11 i) a + S1.size a ≤ S1024.size a
  k0_off13_inb : ∀ i : grid0.Coords, ∀ a, (k0_off13 i) a + S1.size a ≤ S1024.size a
  k0_off15_inb : ∀ i : grid0.Coords, ∀ a, (k0_off15 i) a + S1.size a ≤ S1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S1024x256x256.size a
  hwx0_0 : ∀ i : grid0.Coords, EltTy.bits .f32 = 32 ∨ (Rect.block (s := S1024x256x256) S8x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S1x256.size a ≤ S1x256.size a
  hwx0_1 : ∀ i : grid0.Coords, EltTy.bits .f32 = 32 ∨ (Rect.block (s := S1x256) S1x256.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S8x256x256.size a ≤ S1024x256x256.size a
  hwx0_2 : ∀ i : grid0.Coords, EltTy.bits .f32 = 32 ∨ (Rect.block (s := S1024x256x256) S8x256x256.size (cc0_transform_3 i) (hinb0_2 i)).WholeWords (EltTy.packing .f32)

variable [Facts₀]

abbrev cc0_scratch1 : DmaSems sig S2 := SemArray.consecutive 5 S2 hcc0_scratch1
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev spec0_0 : Pipeline.WinSpec sig grid0.rank :=
  Pipeline.WinSpec.ofSpec (Memref.whole main_arg0) S8x256x256.size reads0_0 false false 2 stage0_0 sem0_0 nbuf0_0 hstage0_0

abbrev spec0_1 : Pipeline.WinSpec sig grid0.rank :=
  Pipeline.WinSpec.ofSpec (Memref.whole main_v1) S1x256.size reads0_1 false true 1 stage0_1 sem0_1 nbuf0_1 hstage0_1

abbrev spec0_2 : Pipeline.WinSpec sig grid0.rank :=
  Pipeline.WinSpec.ofSpec (Memref.whole main_v2) S8x256x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S1024x256x256 : Shape := ⟨3, ![1024, 256, 256]⟩
abbrev S1x1x256 : Shape := ⟨3, ![1, 1, 256]⟩
abbrev S1024 : Shape := ⟨1, ![1024]⟩
abbrev S_ : Shape := ⟨0, ![]⟩
abbrev S1024x1 : Shape := ⟨2, ![1024, 1]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S1024x256x256, .f32⟩
  | .hbm, ⟨1, _⟩ => ⟨S1024x256x256, .f32⟩
  | .hbm, ⟨2, _⟩ => ⟨S1x1x256, .f32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x256x256, .f32⟩
  | .hbm, ⟨13, _⟩ => ⟨S1024x256x256, .f32⟩
  | .hbm, ⟨14, _⟩ => ⟨S1x256, .f32⟩
  | .hbm, ⟨15, _⟩ => ⟨S1x1x256, .f32⟩
  | .hbm, ⟨16, _⟩ => ⟨S1024x256x256, .f32⟩
  | .hbm, ⟨17, _⟩ => ⟨S1024x256x256, .f32⟩
  | .hbm, ⟨18, _⟩ => ⟨S_, .f32⟩
  | .hbm, ⟨19, _⟩ => ⟨S1024x256x256, .f32⟩
  | .hbm, ⟨20, _⟩ => ⟨S1024x256x256, .f32⟩
  | .hbm, ⟨21, _⟩ => ⟨S1024x256x256, .f32⟩
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  shapeCasts_S1x1x256_S1x256 : S1x1x256.ShapeCasts S1x256
  bcast_S1x256_S1x1x256_1_2 : S1x256.BroadcastsInDim S1x1x256 (![1, 2] : Fin 2 → Fin S1x1x256.rank)
  bcast_S1x1x256_S1024x256x256_0_1_2 : S1x1x256.BroadcastsInDim S1024x256x256 (![0, 1, 2] : Fin 3 → Fin S1024x256x256.rank)
  bcast_S_S1024x256x256 : S_.BroadcastsInDim S1024x256x256 (![] : Fin 0 → Fin S1024x256x256.rank)
  gather_S1024x256x256_S1024x1_S1024x256x256_12_0_n_n_0_1_1256256_wf : GatherDims.WF S1024x256x256 S1024x1 S1024x256x256 [1, 2] [0] [] [0] [] 1 ![1, 256, 256]
  dot_S1024x256x256_S1024x256x256_S1024x256x256_2_1_1_2_0_0_wf : DotDims.WF S1024x256x256 S1024x256x256 S1024x256x256 [2] [1] [1] [2] [0] [0]

variable [Facts₀]

def gather_S1024x256x256_S1024x1_S1024x256x256_12_0_n_n_0_1_1256256 : GatherDims S1024x256x256 S1024x1 S1024x256x256 where
  offsetDims := [1, 2]
  collapsedSliceDims := [0]
  operandBatchingDims := []
  startIndicesBatchingDims := []
  startIndexMap := [0]
  indexVectorDim := 1
  sliceSizes := ![1, 256, 256]
  wf := gather_S1024x256x256_S1024x1_S1024x256x256_12_0_n_n_0_1_1256256_wf
def dot_S1024x256x256_S1024x256x256_S1024x256x256_2_1_1_2_0_0 : DotDims S1024x256x256 S1024x256x256 S1024x256x256 where
  lhsContracting := [2]
  rhsContracting := [1]
  lhsNonContracting := [1]
  rhsNonContracting := [2]
  lhsBatch := [0]
  rhsBatch := [0]
  wf := dot_S1024x256x256_S1024x256x256_S1024x256x256_2_1_1_2_0_0_wf

class Facts : Prop extends Facts₀ where

variable [Facts]
-- ==== Proof.LibSlotRead.lean ====
/-
  Reading a slot of a double buffer after whole-slot deliveries (general; imports only the Idealize library).
  `read_top`, `read_under`: a rectangle of a view read after a whole write through the rectangle's reshaped form — and
  after one more such write into a disjoint rectangle — is the written data re-indexed, whatever the buffer held before.

  A buffer is seen through a view; a slot is a rectangle r of the view, written through the slot's squeezed form (the
  rectangle's view reshaped to a shape with the same number of elements). A delivery overwrites the whole slot with
  data D. Reading the rectangle r right after such a delivery returns D, re-indexed from the squeezed shape to the
  rectangle's own; and so does reading it after one more whole-slot delivery into ANOTHER rectangle r' that shares no
  element with r. Whatever the buffer held before the delivery into r plays no part: the earlier contents g are
  arbitrary in both statements.
-/
import Idealize.ShloMosaic.Lib.Writes
import Idealize.ShloMosaic.Lib.Exec.Geometry

namespace Idealize.ShloMosaic.SlotRead

open Idealize.ShloMosaic

variable {sig : RefSig} {κ : Kind} {sp : Space} {s : Shape} {e : EltTy} {Val : EltTy → Type}

/-- A slot read right after its own whole-slot delivery is the delivered data. -/
theorem read_top (v : View sig κ sp s e) (r : Rect s) {s' : Shape} (h : s'.numel = r.shape.numel)
    (g : v.ty.Contents Val) (D : s'.Idx → Val e) :
    v.readAt Val r.toLoadRect (((v.slice r).reshape s' h).write Val g D Finset.univ)
      = fun x => D ((Shape.reshapeEquiv h).symm x) := by
  rw [View.write_reshape_univ]
  show (v.slice r).read Val ((v.slice r).write Val g _ Finset.univ) = _
  rw [View.read_write_univ]

/-- A slot read after its own whole-slot delivery and then one into a disjoint slot is still the delivered data. -/
theorem read_under (v : View sig κ sp s e) (r r' : Rect s) {s' s'' : Shape} (h : s'.numel = r.shape.numel)
    (h' : s''.numel = r'.shape.numel) (g : v.ty.Contents Val) (D : s'.Idx → Val e) (D' : s''.Idx → Val e)
    (hd : LoadRect.disj r r'.toLoadRect = true) :
    v.readAt Val r.toLoadRect
        (((v.slice r').reshape s'' h').write Val (((v.slice r).reshape s' h).write Val g D Finset.univ) D' Finset.univ)
      = fun x => D ((Shape.reshapeEquiv h).symm x) := by
  rw [View.write_reshape_univ (v := v.slice r')]
  show (v.slice r).read Val ((v.slice r').write Val _ _ Finset.univ) = _
  rw [View.read_slice_write_slice_of_disjoint _ _ _ _ _
    (by rw [View.setOn_univ]; exact View.disjoint_slice_of_disj v r r' hd)]
  exact read_top v r h g D

end Idealize.ShloMosaic.SlotRead
-- ==== Proof.Words.lean ====
/-
  The routing words. A tile's weight slice is named by a 32-bit word. One program clips the word into
  [0, 1023] (the larger of it and 0, then the smaller of that and 1023, both signed); the other adds 1024 to a
  negative word and leaves the rest alone. Whatever the word, the clipped word names one of the 1024 slices;
  and on a word that already lies in [0, 1024), read signed, both leave the word as it is, and its signed and
  unsigned readings agree.
-/
import Idealize.ShloMosaic.Lib.Affine

namespace Cert.MoeSin.Words

open Idealize.ShloMosaic

/-- A word that reads nonnegative signed reads the same unsigned. -/
theorem toInt_eq_toNat (y : BitVec 32) (h0 : 0 ≤ y.toInt) : y.toInt = y.toNat := by
  have h := y.isLt
  rw [BitVec.toInt_eq_toNat_cond] at h0 ⊢
  split at h0 <;> split <;> omega

theorem toInt_zero : (0#32 : BitVec 32).toInt = 0 := by decide
theorem toInt_1023 : (1023#32 : BitVec 32).toInt = 1023 := by decide
theorem toInt_1024 : (1024#32 : BitVec 32).toInt = 1024 := by decide

/-- The clipped word reads between 0 and 1023, signed, whatever the word was. -/
theorem clip_range (x : BitVec 32) :
    0 ≤ (IntOp.minsi 1023#32 (IntOp.maxsi 0#32 x)).toInt ∧ (IntOp.minsi 1023#32 (IntOp.maxsi 0#32 x)).toInt ≤ 1023 := by
  unfold IntOp.minsi IntOp.maxsi
  by_cases h : x.slt 0#32 = true
  · rw [if_pos h]
    have h2 : ¬ ((1023#32 : BitVec 32).slt 0#32 = true) := by decide
    rw [if_neg h2]; rw [toInt_zero]; omega
  · rw [if_neg h]
    rw [BitVec.slt_iff_toInt_lt, toInt_zero] at h
    by_cases h3 : (1023#32 : BitVec 32).slt x = true
    · rw [if_pos h3, toInt_1023]; omega
    · rw [if_neg h3]
      rw [BitVec.slt_iff_toInt_lt, toInt_1023] at h3
      omega

/-- So the clipped word, read unsigned, names one of the 1024 slices. -/
theorem clip_toNat_lt (x : BitVec 32) : (IntOp.minsi 1023#32 (IntOp.maxsi 0#32 x)).toNat < 1024 := by
  obtain ⟨h0, h1⟩ := clip_range x
  have := toInt_eq_toNat _ h0
  omega

/-- A word in [0, 1024), signed, is left alone by the clip. -/
theorem clip_id (x : BitVec 32) (h0 : 0 ≤ x.toInt) (h1 : x.toInt < 1024) :
    IntOp.minsi 1023#32 (IntOp.maxsi 0#32 x) = x := by
  unfold IntOp.minsi IntOp.maxsi
  have ha : ¬ (x.slt 0#32 = true) := by rw [BitVec.slt_iff_toInt_lt, toInt_zero]; omega
  rw [if_neg ha]
  have hb : ¬ ((1023#32 : BitVec 32).slt x = true) := by rw [BitVec.slt_iff_toInt_lt, toInt_1023]; omega
  rw [if_neg hb]

/-- A nonnegative word is left alone by the wrap of negative words. -/
theorem wrap_id (x : BitVec 32) (h0 : 0 ≤ x.toInt) :
    Scalar.select (IntOp.cmpi .slt x 0#32) (IntOp.addi x 1024#32) x = x := by
  unfold Scalar.select
  have hc : ¬ (IntOp.cmpi .slt x 0#32 = 1) := by
    intro hc
    have := IntOp.cmpi_slt.mp hc
    rw [toInt_zero] at this; omega
  rw [if_neg hc]

/-- A word in [0, 1024), signed: its signed reading as a natural number is its unsigned reading, below 1024. -/
theorem toInt_toNat (x : BitVec 32) (h0 : 0 ≤ x.toInt) (h1 : x.toInt < 1024) :
    x.toInt.toNat = x.toNat ∧ x.toNat < 1024 := by
  have := toInt_eq_toNat x h0
  omega

/-- The clip of a nonnegative word, read unsigned, is the word's signed reading capped at 1023: the slice a
    clamping gather reads at that word. -/
theorem clip_toNat (x : BitVec 32) (h0 : 0 ≤ x.toInt) :
    (IntOp.minsi 1023#32 (IntOp.maxsi 0#32 x)).toNat = min x.toInt.toNat 1023 := by
  by_cases h1 : x.toInt < 1024
  · rw [clip_id x h0 h1]
    have := toInt_eq_toNat x h0
    omega
  · unfold IntOp.minsi IntOp.maxsi
    have ha : ¬ (x.slt 0#32 = true) := by rw [BitVec.slt_iff_toInt_lt, toInt_zero]; omega
    rw [if_neg ha]
    have hb : (1023#32 : BitVec 32).slt x = true := by rw [BitVec.slt_iff_toInt_lt, toInt_1023]; omega
    rw [if_pos hb]
    have : (1023#32 : BitVec 32).toNat = 1023 := by decide
    omega

end Cert.MoeSin.Words
-- ==== Proof.KernelTable.lean ====
/-
  The routing table the kernel's region is handed, and the side conditions its body assumes of it.

  Before the region the host clips every routing word into [0, 1023]: the table's word for tile k is the larger of
  the argument's word and 0, then the smaller of that and 1023 (signed). So, whatever the argument holds, every
  table word read unsigned is below 1024 — which is what the body assumes of each of the eight words it loads per
  grid point, before it copies that weight slice out of the 1024: the slice [w, w + 1) x [0, 256) x [0, 256) lies
  inside the [1024, 256, 256] array. The pipeline's own side condition on the table is empty (no window's index
  map reads it). Stated for any reading of the floats.
-/
import proofs.«168333_j11982958756456_2_alg».proof.Proof.Gen.Kernel.Frame.Runs
import proofs.«168333_j11982958756456_2_alg».proof.Proof.Words
import Idealize.ShloMosaic.Lib.StableHlo.Run

set_option maxRecDepth 16384

noncomputable section

namespace Cert.Kernel.Table

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The table's word for tile x: the argument's word clipped into [0, 1023]. -/
theorem tbl_word (x : S1024.Idx) :
    tbl m 0 x = IntOp.minsi 1023#32 (IntOp.maxsi 0#32 (m (((0 : Dev nD) : Thread nD τ).loc main_arg3) x)) := by
  unfold tbl
  show V m 0 main_v0 x = _
  dsimp only [V]
  simp only [hostOps0, hostOps0_1, hostOps0_2, List.flatten_cons, List.flatten_nil, List.append_nil, List.cons_append, List.nil_append]
  after_results
  rfl

/-- Every table word names one of the 1024 weight slices. -/
theorem tbl_lt (x : S1024.Idx) : (tbl m 0 x).toNat < 1024 := by
  rw [tbl_word]; exact Cert.MoeSin.Words.clip_toNat_lt _

/-- A word read out of any table whose words are all below 1024 is below 1024 (the read is the table at the
    rectangle's index). -/
theorem read_lt {c : Dev nD} (xt : TbBuf0 (F := F) c tbM0_0) (h : ∀ x : S1024.Idx, (xt x).toNat < 1024)
    (off : Fin 1 → Nat) (inb : ∀ a, off a + S1.size a ≤ S1024.size a) (j : S1.Idx) :
    (tbM0_0.view.readAt (Elt F) (Rect.unit (s := S1024) off S1.size inb).toLoadRect xt j).toNat < 1024 := h _

/-- The slice a word below 1024 names lies inside the [1024, 256, 256] array. -/
theorem slice_inside (w : BitVec 32) (hw : w.toNat < 1024) :
    ∀ a, (![w.toNat, 0, 0] : Fin 3 → Nat) a + S1x256x256.size a ≤ S1024x256x256.size a := by
  intro a
  fin_cases a <;> simp [S1x256x256, S1024x256x256] <;> omega

/-- The eight side conditions the body assumes, at every grid point, for every memory. -/
theorem hyps (hO : Ok m) : Hyps m hO :=
  Hyps.of
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))

/-- The pipeline's side condition on the table is empty. -/
theorem ok : Ok m := trivial

end Cert.Kernel.Table

end
-- ==== Proof.KernelIdealTable.lean ====
/-
  The routing table the kernel's region is handed, and the side conditions its body assumes of it.

  Before the region the host clips every routing word into [0, 1023]: the table's word for tile k is the larger of
  the argument's word and 0, then the smaller of that and 1023 (signed). So, whatever the argument holds, every
  table word read unsigned is below 1024 — which is what the body assumes of each of the eight words it loads per
  grid point, before it copies that weight slice out of the 1024: the slice [w, w + 1) x [0, 256) x [0, 256) lies
  inside the [1024, 256, 256] array. The pipeline's own side condition on the table is empty (no window's index
  map reads it). Stated for any reading of the floats.
-/
import proofs.«168333_j11982958756456_2_alg».proof.Proof.Gen.KernelIdeal.Frame.Runs
import proofs.«168333_j11982958756456_2_alg».proof.Proof.Words
import Idealize.ShloMosaic.Lib.StableHlo.Run

set_option maxRecDepth 16384

noncomputable section

namespace Cert.KernelIdeal.Table

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The table's word for tile x: the argument's word clipped into [0, 1023]. -/
theorem tbl_word (x : S1024.Idx) :
    tbl m 0 x = IntOp.minsi 1023#32 (IntOp.maxsi 0#32 (m (((0 : Dev nD) : Thread nD τ).loc main_arg3) x)) := by
  unfold tbl
  show V m 0 main_v0 x = _
  dsimp only [V]
  simp only [hostOps0, hostOps0_1, hostOps0_2, List.flatten_cons, List.flatten_nil, List.append_nil, List.cons_append, List.nil_append]
  after_results
  rfl

/-- Every table word names one of the 1024 weight slices. -/
theorem tbl_lt (x : S1024.Idx) : (tbl m 0 x).toNat < 1024 := by
  rw [tbl_word]; exact Cert.MoeSin.Words.clip_toNat_lt _

/-- A word read out of any table whose words are all below 1024 is below 1024 (the read is the table at the
    rectangle's index). -/
theorem read_lt {c : Dev nD} (xt : TbBuf0 (F := F) c tbM0_0) (h : ∀ x : S1024.Idx, (xt x).toNat < 1024)
    (off : Fin 1 → Nat) (inb : ∀ a, off a + S1.size a ≤ S1024.size a) (j : S1.Idx) :
    (tbM0_0.view.readAt (Elt F) (Rect.unit (s := S1024) off S1.size inb).toLoadRect xt j).toNat < 1024 := h _

/-- The slice a word below 1024 names lies inside the [1024, 256, 256] array. -/
theorem slice_inside (w : BitVec 32) (hw : w.toNat < 1024) :
    ∀ a, (![w.toNat, 0, 0] : Fin 3 → Nat) a + S1x256x256.size a ≤ S1024x256x256.size a := by
  intro a
  fin_cases a <;> simp [S1x256x256, S1024x256x256] <;> omega

/-- The eight side conditions the body assumes, at every grid point, for every memory. -/
theorem hyps (hO : Ok m) : Hyps m hO :=
  Hyps.of
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))
    (fun c t => slice_inside _ (read_lt (c := c) (tbl m 0) (tbl_lt m) _ _ _))

/-- The pipeline's side condition on the table is empty. -/
theorem ok : Ok m := trivial

end Cert.KernelIdeal.Table

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.Spec.lean ====
/-
  The function both programs compute, stated once over plain index functions.

  For a tile t, a point p and an output channel o,
      out[t, p, o] = sin (30 * ((sum over i of x[t, p, i] * w[row t, i, o]) + b[0, 0, o])),
  where row t is the weight slice the tile is routed to: the tile's routing word read as a signed integer and
  capped at 1023, the last slice. Everything is read on the extended reals: the products, the sum over the 256
  input channels, the bias, the scaling by 30 and the sine are the exact ones. The constant 30 is kept as the
  float pattern both programs carry; it is never evaluated.
-/
import Idealize.ShloMosaic.Lib.ValueIdx
import Idealize.ShloMosaic.PureOps.Ideal

noncomputable section

open scoped BigOperators

namespace Cert.MoeSin

open Idealize.ShloMosaic Idealize.ShloMosaic.ValueIdx

/-- The shapes of the activations / weights / result, of the bias, and of the routing words. -/
abbrev A3 : Shape := ⟨3, ![1024, 256, 256]⟩
abbrev B3 : Shape := ⟨3, ![1, 1, 256]⟩
abbrev R1 : Shape := ⟨1, ![1024]⟩

/-- One output element: a row of activations against a column of the routed weight slice, plus the bias entry,
    scaled by 30, under the sine. -/
def cell (xrow wcol : Fin 256 → EReal) (b : EReal) : EReal :=
  Ideal.sin (Ideal.ofBits .f32 0x41F00000#32 * ((∑ k : Fin 256, xrow k * wcol k) + b))

/-- The weight slice tile t is routed to: its routing word read signed, capped at the last slice. -/
def rowOf (idx : R1.Idx → BitVec 32) (t : Fin 1024) : Fin 1024 :=
  ⟨min (idx (ix1 t)).toInt.toNat 1023, by omega⟩

/-- The whole result, index by index. -/
def moeSin (x w : A3.Idx → EReal) (b : B3.Idx → EReal) (idx : R1.Idx → BitVec 32) : A3.Idx → EReal :=
  fun j => cell (fun k => x (ix3 (j 0) (j 1) k)) (fun k => w (ix3 (rowOf idx (j 0)) k (j 2)))
    (b (ix3 (0 : Fin 1) (0 : Fin 1) (j 2)))

end Cert.MoeSin

end
-- ==== Proof.TilePayload.lean ====
/-
  One tile's arithmetic, read at an index. For a tile the kernel body takes the tile's 256 x 256 block of activations
  and the 256 x 256 weight slice it copied in (both held as [1, 256, 256] blocks), multiplies them as matrices into a
  zero accumulator, adds the bias row to every row, scales by 30 and takes the sine; the result is stored as a
  [1, 256, 256] block. At (0, p, o) that is the specification's cell of row p of the activations, column o of the weight
  slice and entry o of the bias row: the changes of float format in between are the identity on the extended reals, and
  the matrix product is the sum over the 256 contracted channels. The eight tiles of a grid point run the same arithmetic.
-/
import proofs.«168333_j11982958756456_2_alg».proof.Proof.Gen.KernelIdeal.Skeleton
import proofs.«168333_j11982958756456_2_alg».proof.Proof.LibPlainMatmul
import proofs.«168333_j11982958756456_2_alg».proof.Proof.Spec
import Idealize.ShloMosaic.Lib.Pipeline.Value

noncomputable section

open scoped BigOperators

namespace Cert.KernelIdeal.Tile

open Cert.KernelIdeal Cert.KernelIdeal.Gen
open Idealize.ShloMosaic Idealize.ShloMosaic.ValueIdx Idealize.ShloMosaic.PlainMatmul Cert.MoeSin

/-- A [1, 256, 256] block seen as a 256 x 256 matrix, at (a, b): the block at (0, a, b). -/
theorem drop_apply (v : Vec Ideal S1x256x256 .f32) (a b : Fin 256) :
    shapeCast S256x256 v shapeCasts_S1x256x256_S256x256 (ix2 a b) = v (ix3 (0 : Fin 1) a b) :=
  shapeCast_apply v shapeCasts_S1x256x256_S256x256 (ix2 a b) (ix3 (0 : Fin 1) a b)
    (by rw [Shape.rowMajor_val_three, Shape.rowMajor_val_two]; show (0 * 256 + a.val) * 256 + b.val = a.val * 256 + b.val; omega)

/-- The bias row broadcast over the 256 rows, at (a, b): the row at (0, b). -/
theorem bias_apply (v11 : FVec Ideal S1x256 .f32) (a b : Fin 256) :
    broadcastTo S256x256 v11 broadcasts_S1x256_S256x256 (ix2 a b) = v11 (ix2 (0 : Fin 1) b) :=
  broadcastTo_apply v11 broadcasts_S1x256_S256x256 (ix2 a b) (ix2 (0 : Fin 1) b) (fun c => by
    match c with
    | ⟨0, _⟩ => rfl
    | ⟨1, _⟩ => rfl)

/-- THE TILE'S RESULT AT (0, p, o). -/
theorem pay3_apply (v11 : FVec Ideal S1x256 .f32) (v28 v31 : Vec Ideal S1x256x256 .f32) (p o : Fin 256) :
    k0_pay3 (F := Ideal) v11 v28 v31 (ix3 (0 : Fin 1) p o)
      = cell (fun k => v28 (ix3 (0 : Fin 1) p k)) (fun k => v31 (ix3 (0 : Fin 1) k o)) (v11 (ix2 (0 : Fin 1) o)) := by
  unfold k0_pay3
  refine (shapeCast_apply _ shapeCasts_S256x256_S1x256x256 (ix3 (0 : Fin 1) p o) (ix2 p o)
    (by rw [Shape.rowMajor_val_three, Shape.rowMajor_val_two]; show p.val * 256 + o.val = (0 * 256 + p.val) * 256 + o.val; omega)).trans ?_
  unfold cell
  show Ideal.sin (_ * (matmul (F := Ideal) dot_S256x256_S256x256_S256x256_1_0_0_1_n_n none _ _ _ (ix2 p o) + broadcastTo S256x256 v11 broadcasts_S1x256_S256x256 (ix2 p o))) = _
  refine congrArg Ideal.sin ?_
  refine congrArg₂ (· * ·) rfl ?_
  refine congrArg₂ (· + ·) ?_ (bias_apply v11 p o)
  refine (plainMatmul_apply (M := 256) (K := 256) (N := 256) none _ _ p o).trans ?_
  refine Finset.sum_congr rfl fun k _ => ?_
  exact congrArg₂ (· * ·) (drop_apply v28 p k) (drop_apply v31 k o)

/-- The other tiles' payloads are the same term. -/
theorem pay4_eq : @k0_pay4 Ideal _ = @k0_pay3 Ideal _ := rfl
theorem pay5_eq : @k0_pay5 Ideal _ = @k0_pay3 Ideal _ := rfl
theorem pay6_eq : @k0_pay6 Ideal _ = @k0_pay3 Ideal _ := rfl
theorem pay7_eq : @k0_pay7 Ideal _ = @k0_pay3 Ideal _ := rfl
theorem pay8_eq : @k0_pay8 Ideal _ = @k0_pay3 Ideal _ := rfl
theorem pay9_eq : @k0_pay9 Ideal _ = @k0_pay3 Ideal _ := rfl
/-- The last tile's is split in two (the product, then the rest): composed, the same term. -/
theorem pay1_pay10_eq (v11 : FVec Ideal S1x256 .f32) (v235 v238 : Vec Ideal S1x256x256 .f32) :
    k0_pay1 (F := Ideal) v11 (k0_pay10 v235 v238) = k0_pay3 v11 v235 v238 := rfl

end Cert.KernelIdeal.Tile

end
-- ==== Proof.BlockReads.lean ====
/-
  The three operands of a tile, read at an index, for any reading of the floats.

  Inside a grid point's [8, 256, 256] block of activations, tile j's rows are the rectangle at offset (j, 0, 0): the
  load at (0, p, k) is the block at (j, p, k). The bias row is loaded whole. The weight operand is what the copy
  delivered: the [1024, 256, 256] weight array seen through the rectangle at offset (w, 0, 0), w the tile's table word
  read unsigned, flattened to 256 x 256 and read back as a [1, 256, 256] block; at (0, k, o) that is the weight array at
  (w, k, o).
-/
import proofs.«168333_j11982958756456_2_alg».proof.Proof.Gen.KernelIdeal.Frame.Runs
import Idealize.ShloMosaic.Lib.Pipeline.Value
import Idealize.ShloMosaic.Lib.Pipeline.FrameBody
import Idealize.ShloMosaic.Lib.ValueIdx

noncomputable section

namespace Cert.KernelIdeal.BlockReads

open Cert.KernelIdeal Cert.KernelIdeal.Gen
open Idealize.ShloMosaic Idealize.ShloMosaic.ValueIdx Idealize.ShloMosaic.TcCoe

variable {F : FTy → Type} [FloatOps F]

/-- Tile j's activations at (0, p, k): the block at (j, p, k). -/
theorem xblock_apply (arg2 : Memref sig .tc .vmem S8x256x256 .f32) (harg2 : arg2.IsWhole) (x0 : Vec F S8x256x256 .f32)
    (off : Fin 3 → Nat) (inb : ∀ a, off a + S1x256x256.size a ≤ S8x256x256.size a) (j : Fin 8) (hoff : off = ![j.val, 0, 0])
    (p k : Fin 256) :
    View.readAt (Elt F) arg2.view (Rect.unit (s := S8x256x256) off S1x256x256.size inb).toLoadRect (harg2.unread x0)
        (ix3 (0 : Fin 1) p k) = x0 (ix3 j p k) := by
  subst hoff
  rw [View.readAt_eq_ld, harg2.read_unread]
  refine congrArg x0 (funext fun a => Fin.ext ?_)
  match a with
  | ⟨0, _⟩ => show j.val + 1 * 0 = j.val; omega
  | ⟨1, _⟩ => show 0 + 1 * p.val = p.val; omega
  | ⟨2, _⟩ => show 0 + 1 * k.val = k.val; omega

/-- The bias row as loaded and recast: the row itself. -/
theorem bias_row (arg4 : Memref sig .tc .vmem S1x256 .f32) (harg4 : arg4.IsWhole) (x1 : Vec F S1x256 .f32) :
    k0_pay2 (View.readAt (Elt F) arg4.view (Rect.unit (s := S1x256) ![0, 0] S1x256.size inb_S1x256_S1x256_0_0).toLoadRect
      (harg4.unread x1)) = x1 := by
  unfold k0_pay2
  rw [shapeCast_self, View.readAt_eq_ld, harg4.read_unread]
  exact View.ld_unit_zero (funext fun a => by match a with | ⟨0, _⟩ => rfl | ⟨1, _⟩ => rfl) _ x1

/-- The delivered weight slice at (0, k, o): the weight array at (r, k, o), r the table word read unsigned. -/
theorem wslice_apply {c : Dev nD} (fh0 : HbBuf0 (F := F) c hbM0_0) (off : Fin 3 → Nat)
    (inb : ∀ a, off a + S1x256x256.size a ≤ S1024x256x256.size a) (r : Fin 1024) (hoff : off = ![r.val, 0, 0])
    (h : S256x256.numel = (Rect.unit (s := S1024x256x256) off S1x256x256.size inb).shape.numel) (k o : Fin 256) :
    ReadAs.same.apply (View.read (Elt F)
        (((View.whole main_arg1).slice (Rect.unit (s := S1024x256x256) off S1x256x256.size inb)).reshape S256x256 h) fh0)
      ((Shape.reshapeEquiv h).symm (ix3 (0 : Fin 1) k o)) = fh0 (ix3 r k o) := by
  subst hoff
  rw [ReadAs.apply_same, View.read_apply]
  simp only [View.emb_reshape, View.emb_slice, View.emb_whole, Function.Embedding.trans_apply, Equiv.toEmbedding_apply,
    Equiv.apply_symm_apply, Function.Embedding.refl_apply]
  refine (cast_eq _ _).trans (congrArg fh0 (funext fun a => Fin.ext ?_))
  match a with
  | ⟨0, _⟩ => show r.val + 1 * 0 = r.val; omega
  | ⟨1, _⟩ => show 0 + 1 * k.val = k.val; omega
  | ⟨2, _⟩ => show 0 + 1 * o.val = o.val; omega

end Cert.KernelIdeal.BlockReads

end
-- ==== Proof.KernelBlock.lean ====
/-
  What one grid point leaves in the output's staging buffer, as ONE function of the point's operands.

  The body stores eight [1, 256, 256] pieces, tile j at offset (j, 0, 0) of the [8, 256, 256] block; each piece is the
  tile's arithmetic (Proof/TilePayload.lean) of the tile's rows of the activation block, the bias row and the weight
  slice the tile's table word names (Proof/BlockReads.lean). So the block at (j, p, o) is the specification's cell of
  row (j, p) of the activations, column o of weight slice R j and bias entry o, where R j is tile j's table word read
  unsigned. The pieces tile the block, so reading the buffer back is this function everywhere.
-/
import proofs.«168333_j11982958756456_2_alg».proof.Proof.KernelIdealFrame
import proofs.«168333_j11982958756456_2_alg».proof.Proof.TilePayload
import proofs.«168333_j11982958756456_2_alg».proof.Proof.BlockReads
import proofs.«168333_j11982958756456_2_alg».proof.Proof.Spec

set_option maxRecDepth 16384

noncomputable section

open scoped BigOperators

namespace Cert.KernelIdeal.Block

open Cert.KernelIdeal Cert.KernelIdeal.Gen Cert.KernelIdeal.GenP Cert.KernelIdeal.Tile Cert.KernelIdeal.BlockReads
open Idealize.ShloMosaic Idealize.ShloMosaic.ValueIdx Idealize.ShloMosaic.TcCoe Cert.MoeSin

/-- The block: at (j, p, o) the cell of activations row (j, p), weight slice R j column o, bias entry o. -/
def blockFn (x0 : Vec Ideal S8x256x256 .f32) (x1 : Vec Ideal S1x256 .f32) (W : S1024x256x256.Idx → EReal)
    (R : Fin 8 → Fin 1024) : S8x256x256.Idx → EReal :=
  fun y => cell (fun k => x0 (ix3 (y 0) (y 1) k)) (fun k => W (ix3 (R (y 0)) k (y 2))) (x1 (ix2 (0 : Fin 1) (y 2)))

/-- A piece at offset (j, 0, 0) whose payload is tile j's cells is the block's restriction to its rectangle. -/
theorem piece_ok (x0 : Vec Ideal S8x256x256 .f32) (x1 : Vec Ideal S1x256 .f32) (W : S1024x256x256.Idx → EReal)
    (R : Fin 8 → Fin 1024) (j : Fin 8) (off : Fin 3 → Nat) (inb : ∀ a, off a + S1x256x256.size a ≤ S8x256x256.size a)
    (hoff : off = ![j.val, 0, 0]) (payload : Vec Ideal S1x256x256 .f32)
    (hpay : ∀ p o : Fin 256, payload (ix3 (0 : Fin 1) p o)
      = cell (fun k => x0 (ix3 j p k)) (fun k => W (ix3 (R j) k o)) (x1 (ix2 (0 : Fin 1) o)))
    (x : (⟨3, ![1, 256, 256]⟩ : Shape).Idx) :
    payload x = blockFn x0 x1 W R ((Rect.unit (s := S8x256x256) off S1x256x256.size inb).emb x) := by
  subst hoff
  obtain ⟨a, p, o, rfl⟩ : ∃ (a : Fin 1) (p o : Fin 256), x = ix3 a p o := ⟨x 0, x 1, x 2, eq_ix3 x⟩
  obtain rfl : a = 0 := Subsingleton.elim _ _
  have hy : (Rect.unit (s := S8x256x256) ![j.val, 0, 0] S1x256x256.size inb).emb (ix3 (0 : Fin 1) p o) = ix3 j p o :=
    funext fun b => Fin.ext (by
      match b with
      | ⟨0, _⟩ => show j.val + 1 * 0 = j.val; omega
      | ⟨1, _⟩ => show 0 + 1 * p.val = p.val; omega
      | ⟨2, _⟩ => show 0 + 1 * o.val = o.val; omega)
  rw [hpay, hy]
  rfl

/-- One tile's payload over the operands as the run loads them, at (0, p, o). -/
theorem tile_cell (arg2 : Memref sig .tc .vmem S8x256x256 .f32) (harg2 : arg2.IsWhole) (x0 : Vec Ideal S8x256x256 .f32)
    (offX : Fin 3 → Nat) (inbX : ∀ a, offX a + S1x256x256.size a ≤ S8x256x256.size a) (j : Fin 8) (hoffX : offX = ![j.val, 0, 0])
    (arg4 : Memref sig .tc .vmem S1x256 .f32) (harg4 : arg4.IsWhole) (x1 : Vec Ideal S1x256 .f32)
    {c : Dev nD} (fh0 : HbBuf0 (F := Ideal) c hbM0_0) (offW : Fin 3 → Nat)
    (inbW : ∀ a, offW a + S1x256x256.size a ≤ S1024x256x256.size a) (r : Fin 1024) (hoffW : offW = ![r.val, 0, 0])
    (h : S256x256.numel = (Rect.unit (s := S1024x256x256) offW S1x256x256.size inbW).shape.numel) (p o : Fin 256) :
    k0_pay3 (F := Ideal)
        (k0_pay2 (View.readAt (Elt Ideal) arg4.view (Rect.unit (s := S1x256) ![0, 0] S1x256.size inb_S1x256_S1x256_0_0).toLoadRect (harg4.unread x1)))
        (View.readAt (Elt Ideal) arg2.view (Rect.unit (s := S8x256x256) offX S1x256x256.size inbX).toLoadRect (harg2.unread x0))
        (fun x => ReadAs.same.apply (View.read (Elt Ideal)
          (((View.whole main_arg1).slice (Rect.unit (s := S1024x256x256) offW S1x256x256.size inbW)).reshape S256x256 h) fh0)
          ((Shape.reshapeEquiv h).symm x))
        (ix3 (0 : Fin 1) p o)
      = cell (fun k => x0 (ix3 j p k)) (fun k => fh0 (ix3 r k o)) (x1 (ix2 (0 : Fin 1) o)) := by
  rw [pay3_apply, bias_row]
  simp only [xblock_apply arg2 harg2 x0 offX inbX j hoffX, wslice_apply fh0 offW inbW r hoffW h]

/-- THE BLOCK a grid point leaves: the run's pieces read back, for table words naming slices R 0 .. R 7. -/
theorem out_block (c : Dev nD) (i : grid0.Coords) (arg2 : Memref sig .tc .vmem S8x256x256 .f32) (harg2 : arg2.IsWhole) (arg4 : Memref sig .tc .vmem S1x256 .f32) (harg4 : arg4.IsWhole) (arg5 : Memref sig .tc .vmem S8x256x256 .f32) (harg5 : arg5.IsWhole) (arg6 : Memref sig .tc .vmem S2x256x256 .f32) (harg6 : arg6.IsWhole)
    (x0 : Vec Ideal S8x256x256 .f32) (x1 : Vec Ideal S1x256 .f32) (xt0 : TbBuf0 (F := Ideal) c tbM0_0) (fh0 : HbBuf0 (F := Ideal) c hbM0_0) (k0_hw1 : k0_chk1 (tbM0_0.view.readAt (Elt Ideal) (Rect.unit (s := S1024) (k0_off1 i) S1.size (k0_off1_inb i)).toLoadRect xt0 (Shape.Idx.first (numel1_S1.symm ▸ Nat.one_pos)))) (k0_hw2 : k0_chk2 (tbM0_0.view.readAt (Elt Ideal) (Rect.unit (s := S1024) (k0_off3 i) S1.size (k0_off3_inb i)).toLoadRect xt0 (Shape.Idx.first (numel1_S1.symm ▸ Nat.one_pos)))) (k0_hw3 : k0_chk3 (tbM0_0.view.readAt (Elt Ideal) (Rect.unit (s := S1024) (k0_off5 i) S1.size (k0_off5_inb i)).toLoadRect xt0 (Shape.Idx.first (numel1_S1.symm ▸ Nat.one_pos)))) (k0_hw4 : k0_chk4 (tbM0_0.view.readAt (Elt Ideal) (Rect.unit (s := S1024) (k0_off7 i) S1.size (k0_off7_inb i)).toLoadRect xt0 (Shape.Idx.first (numel1_S1.symm ▸ Nat.one_pos)))) (k0_hw5 : k0_chk5 (tbM0_0.view.readAt (Elt Ideal) (Rect.unit (s := S1024) (k0_off9 i) S1.size (k0_off9_inb i)).toLoadRect xt0 (Shape.Idx.first (numel1_S1.symm ▸ Nat.one_pos)))) (k0_hw6 : k0_chk6 (tbM0_0.view.readAt (Elt Ideal) (Rect.unit (s := S1024) (k0_off11 i) S1.size (k0_off11_inb i)).toLoadRect xt0 (Shape.Idx.first (numel1_S1.symm ▸ Nat.one_pos)))) (k0_hw7 : k0_chk7 (tbM0_0.view.readAt (Elt Ideal) (Rect.unit (s := S1024) (k0_off13 i) S1.size (k0_off13_inb i)).toLoadRect xt0 (Shape.Idx.first (numel1_S1.symm ▸ Nat.one_pos)))) (k0_hw8 : k0_chk8 (tbM0_0.view.readAt (Elt Ideal) (Rect.unit (s := S1024) (k0_off15 i) S1.size (k0_off15_inb i)).toLoadRect xt0 (Shape.Idx.first (numel1_S1.symm ▸ Nat.one_pos)))) (R : Fin 8 → Fin 1024)
    (hR0 : (tbM0_0.view.readAt (Elt Ideal) (Rect.unit (s := S1024) (k0_off1 i) S1.size (k0_off1_inb i)).toLoadRect xt0 (Shape.Idx.first (numel1_S1.symm ▸ Nat.one_pos))).toNat = (R 0).val)
    (hR1 : (tbM0_0.view.readAt (Elt Ideal) (Rect.unit (s := S1024) (k0_off3 i) S1.size (k0_off3_inb i)).toLoadRect xt0 (Shape.Idx.first (numel1_S1.symm ▸ Nat.one_pos))).toNat = (R 1).val)
    (hR2 : (tbM0_0.view.readAt (Elt Ideal) (Rect.unit (s := S1024) (k0_off5 i) S1.size (k0_off5_inb i)).toLoadRect xt0 (Shape.Idx.first (numel1_S1.symm ▸ Nat.one_pos))).toNat = (R 2).val)
    (hR3 : (tbM0_0.view.readAt (Elt Ideal) (Rect.unit (s := S1024) (k0_off7 i) S1.size (k0_off7_inb i)).toLoadRect xt0 (Shape.Idx.first (numel1_S1.symm ▸ Nat.one_pos))).toNat = (R 3).val)
    (hR4 : (tbM0_0.view.readAt (Elt Ideal) (Rect.unit (s := S1024) (k0_off9 i) S1.size (k0_off9_inb i)).toLoadRect xt0 (Shape.Idx.first (numel1_S1.symm ▸ Nat.one_pos))).toNat = (R 4).val)
    (hR5 : (tbM0_0.view.readAt (Elt Ideal) (Rect.unit (s := S1024) (k0_off11 i) S1.size (k0_off11_inb i)).toLoadRect xt0 (Shape.Idx.first (numel1_S1.symm ▸ Nat.one_pos))).toNat = (R 5).val)
    (hR6 : (tbM0_0.view.readAt (Elt Ideal) (Rect.unit (s := S1024) (k0_off13 i) S1.size (k0_off13_inb i)).toLoadRect xt0 (Shape.Idx.first (numel1_S1.symm ▸ Nat.one_pos))).toNat = (R 6).val)
    (hR7 : (tbM0_0.view.readAt (Elt Ideal) (Rect.unit (s := S1024) (k0_off15 i) S1.size (k0_off15_inb i)).toLoadRect xt0 (Shape.Idx.first (numel1_S1.symm ▸ Nat.one_pos))).toNat = (R 7).val) :
    out0_A_2 c i arg2 harg2 arg4 harg4 arg5 harg5 arg6 harg6 x0 x1 xt0 fh0 k0_hw1 k0_hw2 k0_hw3 k0_hw4 k0_hw5 k0_hw6 k0_hw7 k0_hw8 = blockFn x0 x1 fh0 R := by
  unfold out0_A_2
  funext y
  refine (congrFun (View.read_writes_eq_canon _ _ _ (cover0_A_2 c i arg2 harg2 arg4 harg4 arg5 harg5 arg6 harg6 x0 x1 xt0 fh0 k0_hw1 k0_hw2 k0_hw3 k0_hw4 k0_hw5 k0_hw6 k0_hw7 k0_hw8)) y).trans ?_
  refine View.canon_apply_of_pieces (blockFn x0 x1 fh0 R) _ ?_ y (cover0_A_2 c i arg2 harg2 arg4 harg4 arg5 harg5 arg6 harg6 x0 x1 xt0 fh0 k0_hw1 k0_hw2 k0_hw3 k0_hw4 k0_hw5 k0_hw6 k0_hw7 k0_hw8 y)
  intro pc hpc x
  unfold kernelRun0_A at hpc
  dsimp only at hpc
  simp only [List.mem_cons, List.not_mem_nil, or_false] at hpc
  rcases hpc with rfl | rfl | rfl | rfl | rfl | rfl | rfl | rfl
  · dsimp only
    refine piece_ok x0 x1 fh0 R (7 : Fin 8) _ _ ?_ _ (fun p o => ?_) x
    · rfl
    rw [pay1_pay10_eq]
    refine tile_cell arg2 harg2 x0 _ _ (7 : Fin 8) ?_ arg4 harg4 x1 fh0 _ _ (R 7) ?_ _ p o
    · rfl
    · show (![_, 0, 0] : Fin 3 → Nat) = _
      rw [hR7]
  · dsimp only
    refine piece_ok x0 x1 fh0 R (6 : Fin 8) _ _ ?_ _ (fun p o => ?_) x
    · rfl
    rw [pay9_eq]
    refine tile_cell arg2 harg2 x0 _ _ (6 : Fin 8) ?_ arg4 harg4 x1 fh0 _ _ (R 6) ?_ _ p o
    · rfl
    · show (![_, 0, 0] : Fin 3 → Nat) = _
      rw [hR6]
  · dsimp only
    refine piece_ok x0 x1 fh0 R (5 : Fin 8) _ _ ?_ _ (fun p o => ?_) x
    · rfl
    rw [pay8_eq]
    refine tile_cell arg2 harg2 x0 _ _ (5 : Fin 8) ?_ arg4 harg4 x1 fh0 _ _ (R 5) ?_ _ p o
    · rfl
    · show (![_, 0, 0] : Fin 3 → Nat) = _
      rw [hR5]
  · dsimp only
    refine piece_ok x0 x1 fh0 R (4 : Fin 8) _ _ ?_ _ (fun p o => ?_) x
    · rfl
    rw [pay7_eq]
    refine tile_cell arg2 harg2 x0 _ _ (4 : Fin 8) ?_ arg4 harg4 x1 fh0 _ _ (R 4) ?_ _ p o
    · rfl
    · show (![_, 0, 0] : Fin 3 → Nat) = _
      rw [hR4]
  · dsimp only
    refine piece_ok x0 x1 fh0 R (3 : Fin 8) _ _ ?_ _ (fun p o => ?_) x
    · rfl
    rw [pay6_eq]
    refine tile_cell arg2 harg2 x0 _ _ (3 : Fin 8) ?_ arg4 harg4 x1 fh0 _ _ (R 3) ?_ _ p o
    · rfl
    · show (![_, 0, 0] : Fin 3 → Nat) = _
      rw [hR3]
  · dsimp only
    refine piece_ok x0 x1 fh0 R (2 : Fin 8) _ _ ?_ _ (fun p o => ?_) x
    · rfl
    rw [pay5_eq]
    refine tile_cell arg2 harg2 x0 _ _ (2 : Fin 8) ?_ arg4 harg4 x1 fh0 _ _ (R 2) ?_ _ p o
    · rfl
    · show (![_, 0, 0] : Fin 3 → Nat) = _
      rw [hR2]
  · dsimp only
    refine piece_ok x0 x1 fh0 R (1 : Fin 8) _ _ ?_ _ (fun p o => ?_) x
    · rfl
    rw [pay4_eq]
    refine tile_cell arg2 harg2 x0 _ _ (1 : Fin 8) ?_ arg4 harg4 x1 fh0 _ _ (R 1) ?_ _ p o
    · rfl
    · show (![_, 0, 0] : Fin 3 → Nat) = _
      rw [hR1]
  · dsimp only
    refine piece_ok x0 x1 fh0 R (0 : Fin 8) _ _ ?_ _ (fun p o => ?_) x
    · rfl
    refine tile_cell arg2 harg2 x0 _ _ (0 : Fin 8) ?_ arg4 harg4 x1 fh0 _ _ (R 0) ?_ _ p o
    · rfl
    · show (![_, 0, 0] : Fin 3 → Nat) = _
      rw [hR0]

end Cert.KernelIdeal.Block

end
-- ==== Proof.KernelArray.lean ====
/-
  From the grid points' blocks to the whole output array.

  Grid point t (of 128) works on tiles 8t .. 8t + 7: its activation block is rows [8t, 8t + 8) of x, its output block rows
  [8t, 8t + 8) of the result, and the eight table words it loads are those of tiles 8t .. 8t + 7. The table holds the
  routing words clipped into [0, 1023]; a nonnegative word clipped and read unsigned is the word read signed and capped
  at 1023, the slice the specification names. So what point t writes back is block t of the specification, the blocks
  of the 128 points cover the array, and the array ends holding the specification.
-/
import proofs.«168333_j11982958756456_2_alg».proof.Proof.KernelBlock
import proofs.«168333_j11982958756456_2_alg».proof.Proof.KernelIdealTable
import proofs.«168333_j11982958756456_2_alg».proof.Proof.Spec
import proofs.«168333_j11982958756456_2_alg».proof.Proof.Words
import Idealize.ShloMosaic.Lib.StableHlo.Run

set_option maxRecDepth 16384

noncomputable section

open scoped BigOperators

namespace Cert.KernelIdeal.ArrayValue

open Cert.KernelIdeal Cert.KernelIdeal.Gen Cert.KernelIdeal.GenP Cert.KernelIdeal.Block
open Idealize.ShloMosaic Idealize.ShloMosaic.ValueIdx Idealize.ShloMosaic.TcCoe Idealize.SL.Sem
open Idealize.ShloMosaic.StableHlo Cert.MoeSin

/-- The printed offsets and index maps, decided over the grid: point t loads table words 8t .. 8t + 7 and its
    activation and output blocks sit at block row t. -/
theorem grid_facts : ∀ t : Fin grid0.N,
    k0_off1 (grid0.coords t) (0 : Fin 1) = 8 * t.val + 0 ∧ k0_off3 (grid0.coords t) (0 : Fin 1) = 8 * t.val + 1
    ∧ k0_off5 (grid0.coords t) (0 : Fin 1) = 8 * t.val + 2 ∧ k0_off7 (grid0.coords t) (0 : Fin 1) = 8 * t.val + 3
    ∧ k0_off9 (grid0.coords t) (0 : Fin 1) = 8 * t.val + 4 ∧ k0_off11 (grid0.coords t) (0 : Fin 1) = 8 * t.val + 5
    ∧ k0_off13 (grid0.coords t) (0 : Fin 1) = 8 * t.val + 6 ∧ k0_off15 (grid0.coords t) (0 : Fin 1) = 8 * t.val + 7
    ∧ cc0_transform_0 (grid0.coords t) (0 : Fin 3) = t.val ∧ cc0_transform_0 (grid0.coords t) (1 : Fin 3) = 0
    ∧ cc0_transform_0 (grid0.coords t) (2 : Fin 3) = 0
    ∧ cc0_transform_3 (grid0.coords t) (0 : Fin 3) = t.val ∧ cc0_transform_3 (grid0.coords t) (1 : Fin 3) = 0
    ∧ cc0_transform_3 (grid0.coords t) (2 : Fin 3) = 0
    ∧ cc0_transform_2 (grid0.coords t) (0 : Fin 2) = 0 ∧ cc0_transform_2 (grid0.coords t) (1 : Fin 2) = 0 := by
  decide +kernel

/-- A word read out of a table at offset n is the table's word n. -/
theorem word_eq {c : Dev nD} (xt0 : TbBuf0 (F := Ideal) c tbM0_0) (off : Fin 1 → Nat)
    (inb : ∀ a, off a + S1.size a ≤ S1024.size a) (n : Fin 1024) (hoff : off (0 : Fin 1) = n.val) (h1 : 0 < S1.numel) :
    tbM0_0.view.readAt (Elt Ideal) (Rect.unit (s := S1024) off S1.size inb).toLoadRect xt0 (Shape.Idx.first h1)
      = xt0 (ix1 n) := by
  refine congrArg xt0 (funext fun a => Fin.ext ?_)
  match a with
  | ⟨0, _⟩ =>
    show off (0 : Fin 1) + 1 * (Shape.Idx.first h1 (0 : Fin 1)).val = n.val
    have : (Shape.Idx.first h1 (0 : Fin 1)).val = 0 := by
      have := (Shape.Idx.first h1 (0 : Fin 1)).isLt
      have e : S1.size (0 : Fin 1) = 1 := by decide
      omega
    rw [this, hoff]; omega

variable (m : (ℓ : Loc nD τ sig) → Buf (Elt Ideal) ℓ)

/-- The table's word for tile n, read unsigned, is the slice the specification routes tile n to. -/
theorem row_eq (hnn : ∀ k : S1024.Idx, 0 ≤ (m (((0 : Dev nD) : Thread nD τ).loc main_arg3) k).toInt) (n : Fin 1024) :
    (tbl m 0 (ix1 n)).toNat = (rowOf (m (((0 : Dev nD) : Thread nD τ).loc main_arg3)) n).val := by
  rw [Table.tbl_word]
  exact Cert.MoeSin.Words.clip_toNat _ (hnn _)

/-- The bias window's array as the region finds it: the bias argument recast from [1, 1, 256] to [1, 256]. -/
theorem V_bias (c : Dev nD) (o : Fin 256) :
    V m c main_v1 (ix2 (0 : Fin 1) o) = m ((c : Thread nD τ).loc main_arg2) (ix3 (0 : Fin 1) (0 : Fin 1) o) := by
  have e : (V m c main_v1 : S1x256.Idx → EReal) = shapeCast S1x256 (m ((c : Thread nD τ).loc main_arg2)) shapeCasts_S1x1x256_S1x256 := by
    dsimp only [V]
    simp only [hostOps0, hostOps0_1, hostOps0_2, List.flatten_cons, List.flatten_nil, List.append_nil, List.cons_append, List.nil_append]
    after_results
    rfl
  rw [e]
  exact shapeCast_apply _ shapeCasts_S1x1x256_S1x256 (ix2 (0 : Fin 1) o) (ix3 (0 : Fin 1) (0 : Fin 1) o)
    (by rw [Shape.rowMajor_val_three, Shape.rowMajor_val_two]; show (0 * 1 + 0) * 256 + o.val = 0 * 256 + o.val; omega)

/-! ## Where the blocks sit -/

/-- The activation window's block at point t sits at rows [8t, 8t + 8), for any contents of the table. -/
theorem emb0 (a : (pcfg0 (F := Ideal)).Adm) (t : Fin (cfg0 a).N) (j : Fin 8) (p k : Fin 256) :
    (((cfg0 a).win 0).blk t).view.emb (ix3 j p k)
      = ix3 (⟨8 * t.val + j.val, by have := t.isLt; have := j.isLt; show 8 * t.val + j.val < 1024; have : t.val < 128 := t.isLt; omega⟩ : Fin 1024) p k := by
  obtain ⟨-, -, -, -, -, -, -, -, f0, f1, f2, -⟩ := grid_facts t
  funext b; apply Fin.ext
  match b with
  | ⟨0, _⟩ => show cc0_transform_0 (grid0.coords t) (0 : Fin 3) * 8 + 1 * j.val = 8 * t.val + j.val; rw [f0]; omega
  | ⟨1, _⟩ => show cc0_transform_0 (grid0.coords t) (1 : Fin 3) * 256 + 1 * p.val = p.val; rw [f1]; omega
  | ⟨2, _⟩ => show cc0_transform_0 (grid0.coords t) (2 : Fin 3) * 256 + 1 * k.val = k.val; rw [f2]; omega

/-- The output window's block at point t sits at rows [8t, 8t + 8), for any contents of the table. -/
theorem emb2 (a : (pcfg0 (F := Ideal)).Adm) (t : Fin (cfg0 a).N) (j : Fin 8) (p o : Fin 256) :
    (((cfg0 a).win 2).blk t).view.emb (ix3 j p o)
      = ix3 (⟨8 * t.val + j.val, by have : t.val < 128 := t.isLt; have := j.isLt; show 8 * t.val + j.val < 1024; omega⟩ : Fin 1024) p o := by
  obtain ⟨-, -, -, -, -, -, -, -, -, -, -, f0, f1, f2, -⟩ := grid_facts t
  funext b; apply Fin.ext
  match b with
  | ⟨0, _⟩ => show cc0_transform_3 (grid0.coords t) (0 : Fin 3) * 8 + 1 * j.val = 8 * t.val + j.val; rw [f0]; omega
  | ⟨1, _⟩ => show cc0_transform_3 (grid0.coords t) (1 : Fin 3) * 256 + 1 * p.val = p.val; rw [f1]; omega
  | ⟨2, _⟩ => show cc0_transform_3 (grid0.coords t) (2 : Fin 3) * 256 + 1 * o.val = o.val; rw [f2]; omega

/-- The bias window's block is the whole [1, 256] array at every point. -/
theorem emb1 (a : (pcfg0 (F := Ideal)).Adm) (t : Fin (cfg0 a).N) (o : Fin 256) :
    (((cfg0 a).win 1).blk t).view.emb (ix2 (0 : Fin 1) o) = ix2 (0 : Fin 1) o := by
  obtain ⟨-, -, -, -, -, -, -, -, -, -, -, -, -, -, f0, f1⟩ := grid_facts t
  funext b; apply Fin.ext
  match b with
  | ⟨0, _⟩ => show cc0_transform_2 (grid0.coords t) (0 : Fin 2) * 1 + 1 * 0 = 0; rw [f0]
  | ⟨1, _⟩ => show cc0_transform_2 (grid0.coords t) (1 : Fin 2) * 256 + 1 * o.val = o.val; rw [f1]; omega

/-! ## The input blocks the body is handed -/

/-- Point t's activation block at (j, p, k): the activations of tile 8t + j. -/
theorem iblk0_apply (hO : Ok m) (c : Dev nD) (t : Fin (cfgM m hO).N) (j : Fin 8) (p k : Fin 256) :
    iblk m hO c 0 t (ix3 j p k)
      = m ((c : Thread nD τ).loc main_arg0) (ix3 (⟨8 * t.val + j.val, by have : t.val < 128 := t.isLt; have := j.isLt; show 8 * t.val + j.val < 1024; omega⟩ : Fin 1024) p k) := by
  show V m c main_arg0 ((((cfg0 (adm m hO)).win 0).blk t).view.emb (ix3 j p k)) = _
  rw [emb0 (adm m hO) t j p k, V_main_arg0]

/-- Point t's bias block at (0, o): the bias entry o. -/
theorem iblk1_apply (hO : Ok m) (c : Dev nD) (t : Fin (cfgM m hO).N) (o : Fin 256) :
    iblk m hO c 1 t (ix2 (0 : Fin 1) o) = m ((c : Thread nD τ).loc main_arg2) (ix3 (0 : Fin 1) (0 : Fin 1) o) := by
  show V m c main_v1 ((((cfg0 (adm m hO)).win 1).blk t).view.emb (ix2 (0 : Fin 1) o)) = _
  rw [emb1 (adm m hO) t o, V_bias]

/-! ## What a point writes back, the cover, the array -/

/-- The slices the eight tiles of point t are routed to. -/
def rows (idx : R1.Idx → BitVec 32) (t : Fin 128) (j : Fin 8) : Fin 1024 :=
  rowOf idx ⟨8 * t.val + j.val, by have := t.isLt; have := j.isLt; omega⟩

/-- The specification of the four argument arrays on core c. -/
abbrev spec (c : Dev nD) : S1024x256x256.Idx → EReal :=
  moeSin (m ((c : Thread nD τ).loc main_arg0)) (m ((c : Thread nD τ).loc main_arg1)) (m ((c : Thread nD τ).loc main_arg2))
    (m ((c : Thread nD τ).loc main_arg3))

/-- WHAT POINT t WRITES BACK is block t of the specification, when every routing word is nonnegative. -/
theorem flushed_eq (hO : Ok m) (hH : Hyps m hO)
    (hnn : ∀ (c : Dev nD) (k : S1024.Idx), 0 ≤ (m ((c : Thread nD τ).loc main_arg3) k).toInt) (c : Dev nD) (t : Fin (cfgM m hO).N) :
    (dats m hO hH 0 c).flushed 2 t = (((cfgM m hO).win 2).blk t).view.read (Elt Ideal) (spec m c) := by
  obtain rfl : c = 0 := Subsingleton.elim _ _
  show ((cfgM m hO).win 2).cut (grid0.coords t) ((dats m hO hH 0 0).after 2 t) = _
  rw [after0_2]
  unfold outsAt0
  obtain ⟨e1, e3, e5, e7, e9, e11, e13, e15, -⟩ := grid_facts t
  rw [out_block 0 (grid0.coords t) (ms0_0 m hO t) (hs0_0 m hO t) (ms0_1 m hO t) (hs0_1 m hO t) (ms0_2 m hO t) (hs0_2 m hO t)
    scM0_0 (Memref.isWhole_whole _) (iblk m hO 0 0 t) (iblk m hO 0 1 t) (tbl m 0) (V m 0 main_arg1)
    (Hyps.c0 hH 0 t) (Hyps.c1 hH 0 t) (Hyps.c2 hH 0 t) (Hyps.c3 hH 0 t) (Hyps.c4 hH 0 t) (Hyps.c5 hH 0 t) (Hyps.c6 hH 0 t) (Hyps.c7 hH 0 t)
    (rows (m (((0 : Dev nD) : Thread nD τ).loc main_arg3)) t)
    (by rw [word_eq (c := 0) (tbl m 0) _ _ (⟨8 * t.val + 0, by have : t.val < 128 := t.isLt; show 8 * t.val + 0 < 1024; omega⟩ : Fin 1024) e1]; exact row_eq m (hnn 0) _)
    (by rw [word_eq (c := 0) (tbl m 0) _ _ (⟨8 * t.val + 1, by have : t.val < 128 := t.isLt; show 8 * t.val + 1 < 1024; omega⟩ : Fin 1024) e3]; exact row_eq m (hnn 0) _)
    (by rw [word_eq (c := 0) (tbl m 0) _ _ (⟨8 * t.val + 2, by have : t.val < 128 := t.isLt; show 8 * t.val + 2 < 1024; omega⟩ : Fin 1024) e5]; exact row_eq m (hnn 0) _)
    (by rw [word_eq (c := 0) (tbl m 0) _ _ (⟨8 * t.val + 3, by have : t.val < 128 := t.isLt; show 8 * t.val + 3 < 1024; omega⟩ : Fin 1024) e7]; exact row_eq m (hnn 0) _)
    (by rw [word_eq (c := 0) (tbl m 0) _ _ (⟨8 * t.val + 4, by have : t.val < 128 := t.isLt; show 8 * t.val + 4 < 1024; omega⟩ : Fin 1024) e9]; exact row_eq m (hnn 0) _)
    (by rw [word_eq (c := 0) (tbl m 0) _ _ (⟨8 * t.val + 5, by have : t.val < 128 := t.isLt; show 8 * t.val + 5 < 1024; omega⟩ : Fin 1024) e11]; exact row_eq m (hnn 0) _)
    (by rw [word_eq (c := 0) (tbl m 0) _ _ (⟨8 * t.val + 6, by have : t.val < 128 := t.isLt; show 8 * t.val + 6 < 1024; omega⟩ : Fin 1024) e13]; exact row_eq m (hnn 0) _)
    (by rw [word_eq (c := 0) (tbl m 0) _ _ (⟨8 * t.val + 7, by have : t.val < 128 := t.isLt; show 8 * t.val + 7 < 1024; omega⟩ : Fin 1024) e15]; exact row_eq m (hnn 0) _)]
  refine funext fun (y : S8x256x256.Idx) => ?_
  obtain ⟨j, p, o, rfl⟩ : ∃ (j : Fin 8) (p o : Fin 256), y = ix3 j p o := ⟨y 0, y 1, y 2, eq_ix3 y⟩
  show blockFn (iblk m hO 0 0 t) (iblk m hO 0 1 t) (V m 0 main_arg1) (rows (m (((0 : Dev nD) : Thread nD τ).loc main_arg3)) t) (ix3 j p o)
    = spec m 0 ((((cfg0 (adm m hO)).win 2).blk t).view.emb (ix3 j p o))
  rw [emb2 (adm m hO) t j p o]
  unfold blockFn spec moeSin
  simp only [iblk0_apply m hO 0 t, iblk1_apply m hO 0 t, V_main_arg1]
  rfl

/-- Every index of the result array is in some point's block: tile i0 is tile (i0 mod 8) of point (i0 div 8). -/
theorem cover (a : (pcfg0 (F := Ideal)).Adm) (i : S1024x256x256.Idx) :
    ∃ t : Fin (cfg0 a).N, ((cfg0 a).win 2).flush t = true ∧ i ∈ (((cfg0 a).win 2).blk t).view.set := by
  have h0 : (i 0).val < 1024 := (i 0).isLt
  have h1 : (i 1).val < 256 := (i 1).isLt
  have h2 : (i 2).val < 256 := (i 2).isLt
  obtain ⟨q, hq⟩ : ∃ q : Fin 128, q.val = (i 0).val / 8 := ⟨⟨(i 0).val / 8, by omega⟩, rfl⟩
  obtain ⟨j, hj⟩ : ∃ j : Fin 8, j.val = (i 0).val % 8 := ⟨⟨(i 0).val % 8, by omega⟩, rfl⟩
  refine ⟨q, flush0_2 a q, ?_⟩
  have hm : (((cfg0 a).win 2).blk q).view.emb (ix3 j (⟨(i 1).val, h1⟩ : Fin 256) (⟨(i 2).val, h2⟩ : Fin 256))
      ∈ (((cfg0 a).win 2).blk q).view.set := View.emb_mem_set _ _
  rw [emb2 a q j ⟨(i 1).val, h1⟩ ⟨(i 2).val, h2⟩] at hm
  have ei : i = ix3 (⟨8 * q.val + j.val, by omega⟩ : Fin 1024) (⟨(i 1).val, h1⟩ : Fin 256) (⟨(i 2).val, h2⟩ : Fin 256) :=
    funext fun b => Fin.ext (by
      match b with
      | ⟨0, _⟩ => show (i 0).val = 8 * q.val + j.val; omega
      | ⟨1, _⟩ => rfl
      | ⟨2, _⟩ => rfl)
  rw [ei]
  exact hm

/-- THE RESULT ARRAY after the run is the specification. -/
theorem final (hO : Ok m) (hH : Hyps m hO)
    (hnn : ∀ (c : Dev nD) (k : S1024.Idx), 0 ≤ (m ((c : Thread nD τ).loc main_arg3) k).toInt) (c : Dev nD) :
    (dats m hO hH 0 c).arrAt 2 (cfgM m hO).N = spec m c :=
  (dats m hO hH 0 c).arrAt_eq_of_cover 2 (spec m c) (fun t _ => flushed_eq m hO hH hnn c t) (cover (adm m hO))

/-- THE KERNEL'S RUN, read: every weakly fair execution terminates with the result array at the specification and
    the four argument arrays as they were. -/
theorem run (ρ : Dev nD → PrngReg)
    (hnn : ∀ (c : Dev nD) (k : S1024.Idx), 0 ≤ (m ((c : Thread nD τ).loc main_arg3) k).toInt) :
    θ_run defs (onTc (τ := τ) (main (F := Ideal))) ⟨m, fun _ => 0, ρ⟩ (fun r => ∀ c : Dev nD,
      r.2.mem ((c.tc : Thread nD τ).loc main_v2) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1 2).trans (final m (Table.ok m) (Table.hyps m _) hnn c),
        ((h c).1 0).trans (((dats m (Table.ok m) (Table.hyps m _) 0 c).arrAt_in 0 rfl _).trans
          ((A_eq m (Table.ok m) (Table.hyps m _) c 0).trans (V_main_arg0 m c))),
        ((h c).2 main_arg1 (by decide : main_arg1 ∈ Pipeline.restRefs sig spec0)).trans (V_main_arg1 m c),
        ((h c).2 main_arg2 (by decide : main_arg2 ∈ Pipeline.restRefs sig spec0)).trans (V_main_arg2 m c),
        ((h c).2 main_arg3 (by decide : main_arg3 ∈ Pipeline.restRefs sig spec0)).trans (V_main_arg3 m c)⟩)
    (run_main m ρ (Table.ok m) (Table.hyps m _))

end Cert.KernelIdeal.ArrayValue

end
-- ==== Proof.RefGather.lean ====
/-
  The reference's gather, read at an index. The reference takes, for every tile t, the weight slice at the tile's
  routing word: result element (t, i, o) is the weight array at (r, i, o), where r is the start index for tile t
  read as a signed integer and clamped into [0, 1023] — axis 0 of the operand is the one the start index names and is
  collapsed in the result, axes 1 and 2 are carried over whole.
-/
import proofs.«168333_j11982958756456_2_alg».proof.Proof.Gen.ReferenceIdeal
import Idealize.ShloMosaic.Lib.ValueIdx

noncomputable section

namespace Cert.ReferenceIdeal.RefGather

open Cert.ReferenceIdeal Cert.ReferenceIdeal.Gen Idealize.ShloMosaic Idealize.ShloMosaic.ValueIdx

/-- The printed dimension numbers of the gather. -/
abbrev gd : GatherDims S1024x256x256 S1024x1 S1024x256x256 :=
  gather_S1024x256x256_S1024x1_S1024x256x256_12_0_n_n_0_1_1256256

/-- The start-indices entry tile t reads: (t, 0). -/
theorem siIdx_eq (t : Fin 1024) (a b : Fin 256) (h : List.idxOf (0 : Fin 3) gd.startIndexMap < gd.startIndexMap.length) :
    gd.siIdx (ix3 t a b) ⟨List.idxOf (0 : Fin 3) gd.startIndexMap, h⟩ = ix2 t (0 : Fin 1) := by
  funext c; refine Fin.ext ?_
  match c with
  | ⟨0, _⟩ => rfl
  | ⟨1, _⟩ => rfl

/-- THE GATHER AT (t, a, b): the operand at the clamped signed start index of tile t, same (a, b). -/
theorem gather_apply {α : Type} (x : S1024x256x256.Idx → α) (idx : IVec S1024x1 32) (t : Fin 1024) (a b : Fin 256) :
    Host.gather gd x idx (ix3 t a b)
      = x (ix3 (⟨min (idx (ix2 t (0 : Fin 1))).toInt.toNat 1023, by omega⟩ : Fin 1024) a b) := by
  unfold Host.gather
  refine congrArg x ?_
  funext c
  refine Fin.ext ?_
  match c with
  | ⟨0, _⟩ =>
    show gd.start (ix3 t a b) idx 0 + gd.batchCoord (ix3 t a b) 0 + gd.offCoord (ix3 t a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gd.startIndexMap from List.mem_singleton.mpr rfl)]
    rw [siIdx_eq]
    rfl
  | ⟨1, _⟩ =>
    show gd.start (ix3 t a b) idx 1 + gd.batchCoord (ix3 t a b) 1 + gd.offCoord (ix3 t a b) 1 = a.val
    rw [GatherDims.batchCoord_eq_zero _ _ _ List.not_mem_nil]
    unfold GatherDims.start
    rw [dif_neg (show ¬ (1 : Fin 3) ∈ gd.startIndexMap by decide)]
    unfold GatherDims.offCoord
    rw [dif_pos (show (1 : Fin 3) ∈ gd.sKept by decide)]
    have hq : gd.offsetDims[List.idxOf (1 : Fin 3) gd.sKept]'(by decide) = (1 : Fin 3) := by decide
    rw [hq]
    simp only [Nat.zero_add]
  | ⟨2, _⟩ =>
    show gd.start (ix3 t a b) idx 2 + gd.batchCoord (ix3 t a b) 2 + gd.offCoord (ix3 t a b) 2 = b.val
    rw [GatherDims.batchCoord_eq_zero _ _ _ List.not_mem_nil]
    unfold GatherDims.start
    rw [dif_neg (show ¬ (2 : Fin 3) ∈ gd.startIndexMap by decide)]
    unfold GatherDims.offCoord
    rw [dif_pos (show (2 : Fin 3) ∈ gd.sKept by decide)]
    have hq : gd.offsetDims[List.idxOf (2 : Fin 3) gd.sKept]'(by decide) = (2 : Fin 3) := by decide
    rw [hq]
    simp only [Nat.zero_add]

end Cert.ReferenceIdeal.RefGather

end
-- ==== Proof.RefValue.lean ====
/-
  The reference computes the specification. Read one operation at a time at an index (t, p, o): the sine of 30 times
  the sum of the contraction over the 256 input channels of x[t, p, k] * g[t, k, o] and the bias b[0, 0, o], where g is
  the gathered weight: g[t, k, o] = w[r, k, o] with r the start index of tile t clamped into [0, 1023]. The start
  index is the routing word, with 1024 added when it is negative; on a nonnegative word that is the word itself, so r
  is the slice the specification names.
-/
import proofs.«168333_j11982958756456_2_alg».proof.Proof.Gen.ReferenceIdeal.Read
import proofs.«168333_j11982958756456_2_alg».proof.Proof.RefGather
import proofs.«168333_j11982958756456_2_alg».proof.Proof.Spec
import proofs.«168333_j11982958756456_2_alg».proof.Proof.Words

noncomputable section

open scoped BigOperators

namespace Cert.ReferenceIdeal.RefValue

open Cert.ReferenceIdeal Cert.ReferenceIdeal.Gen Cert.ReferenceIdeal.Read Cert.ReferenceIdeal.RefGather
open Idealize.ShloMosaic Idealize.ShloMosaic.ValueIdx Cert.MoeSin

/-- The start index the gather reads for tile t is the routing word itself, when that is nonnegative. -/
theorem start_word (x3 : (⟨S1024, .i32⟩ : BufTy).Contents (Elt Ideal)) (hnn : ∀ k : S1024.Idx, 0 ≤ (x3 k).toInt) (t : Fin 1024) :
    val_main_v5 (F := Ideal) x3 (ix2 t (0 : Fin 1)) = x3 (ix1 t) := by
  have e : idx_main_v5 (ix2 t (0 : Fin 1)) = ix1 t := funext fun a => Fin.ext (by match a with | ⟨0, _⟩ => rfl)
  rw [val_main_v5_apply, e, val_main_v4_apply, val_main_v1_apply, val_main_v3_apply, val_main_v0_apply, val_main_c_apply,
    val_main_v2_apply, val_main_c_0_apply]
  exact Words.wrap_id _ (hnn _)

/-- The gathered weight at (t, k, o) is the weight array at the tile's slice. -/
theorem gathered (x1 : (⟨S1024x256x256, .f32⟩ : BufTy).Contents (Elt Ideal)) (x3 : (⟨S1024, .i32⟩ : BufTy).Contents (Elt Ideal))
    (hnn : ∀ k : S1024.Idx, 0 ≤ (x3 k).toInt) (t : Fin 1024) (k o : Fin 256) :
    val_main_v6 (F := Ideal) x1 x3 (ix3 t k o) = x1 (ix3 (rowOf x3 t) k o) := by
  unfold val_main_v6
  rw [show gather_S1024x256x256_S1024x1_S1024x256x256_12_0_n_n_0_1_1256256 = gd from rfl, gather_apply]
  refine congrArg x1 ?_
  refine congrArg (fun r => ix3 r k o) (Fin.ext ?_)
  show min (val_main_v5 (F := Ideal) x3 (ix2 t (0 : Fin 1))).toInt.toNat 1023 = min (x3 (ix1 t)).toInt.toNat 1023
  rw [start_word x3 hnn t]

/-- THE REFERENCE IS THE SPECIFICATION, on nonnegative routing words. -/
theorem ref_eq (x0 x1 : (⟨S1024x256x256, .f32⟩ : BufTy).Contents (Elt Ideal)) (x2 : (⟨S1x1x256, .f32⟩ : BufTy).Contents (Elt Ideal))
    (x3 : (⟨S1024, .i32⟩ : BufTy).Contents (Elt Ideal)) (hnn : ∀ k : S1024.Idx, 0 ≤ (x3 k).toInt) :
    val_main_v14 (F := Ideal) x0 x1 x2 x3 = moeSin x0 x1 x2 x3 := by
  funext i
  obtain ⟨t, p, o, rfl⟩ : ∃ (t : Fin 1024) (p o : Fin 256), i = ix3 t p o := ⟨i 0, i 1, i 2, eq_ix3 i⟩
  have el : ∀ k : Fin 256, lidx_main_v7 (ix3 t p o) k = ix3 t p k := fun k =>
    funext fun a => Fin.ext (by match a with | ⟨0, _⟩ => rfl | ⟨1, _⟩ => rfl | ⟨2, _⟩ => rfl)
  have er : ∀ k : Fin 256, ridx_main_v7 (ix3 t p o) k = ix3 t k o := fun k =>
    funext fun a => Fin.ext (by match a with | ⟨0, _⟩ => rfl | ⟨1, _⟩ => rfl | ⟨2, _⟩ => rfl)
  have eb : idx_main_v8 (idx_main_v9 (idx_main_v10 (ix3 t p o))) = ix3 (0 : Fin 1) (0 : Fin 1) o :=
    funext fun a => Fin.ext (by
      match a with
      | ⟨0, _⟩ => rfl
      | ⟨1, _⟩ => rfl
      | ⟨2, _⟩ => show (0 * 256 + o.val) % 256 = o.val; have := o.isLt; omega)
  rw [val_main_v14_apply, val_main_v13_apply, val_main_v12_apply, val_main_cst_apply, val_main_v11_apply, val_main_v7_apply,
    val_main_v10_apply, val_main_v9_apply, val_main_v8_apply, eb]
  simp only [el, er, gathered x1 x3 hnn]
  rfl

end Cert.ReferenceIdeal.RefValue

end
-- ==== Proof.Nonneg.lean ====
/-
  The precondition, read back at the routing words. Its last conjunct is a conjunction over all 1024 tiles of
  "the tile's routing word is at least 0, read signed"; the whole predicate being one, every word is nonnegative.
  Stated for any reading of the floats: the float conjuncts are not opened.
-/
import proofs.«168333_j11982958756456_2_alg».proof.Proof.Gen.Pre_finite_inputs
import Idealize.ShloMosaic.Lib.ReduceAll
import Idealize.ShloMosaic.Lib.IdealHost
import Idealize.ShloMosaic.Lib.ValueIdx

namespace Cert.MoeSin.Nonneg

open Idealize.ShloMosaic Cert.Pre_finite_inputs

/-- The scalar shape has one index. -/
instance : Subsingleton S_.Idx := ⟨fun a b => funext fun d => d.elim0⟩

/-- Every routing word reads nonnegative when the precondition holds of the four argument arrays. -/
theorem nonneg_of_pre {F : FTy → Type} [FloatOps F] (a0 a1 : FVec F S1024x256x256 .f32) (a2 : FVec F S1x1x256 .f32)
    (a3 : IVec S1024 32) (h : fn (F := F) a0 a1 a2 a3 = fun _ => 1#1) (k : S1024.Idx) : 0 ≤ (a3 k).toInt := by
  have e := congrFun h ValueIdx.ix0
  dsimp only [fn, fn_part1] at e
  have e2 := (IntOp.andi_eq_one.mp e).2
  have e3 := Host.reduce_andi_all _ _ _ _ _ e2 k
  have e4 : (broadcastInDim S1024 ![] Facts.bcast_S_S1024 (constantI S_ 32 0#32) k).toInt ≤ (a3 k).toInt :=
    IntOp.cmpi_sge.mp e3
  rw [ValueIdx.broadcastInDim_scalar_apply] at e4
  exact e4

end Cert.MoeSin.Nonneg
-- ==== Proof.lean ====
/-
  The proof of `Cert.Claim`: the kernel and the reference compute, for every tile t, point p and output channel o,

      out[t, p, o] = sin (30 * ((sum over i of x[t, p, i] * w[row t, i, o]) + b[0, 0, o])),

  on the extended reals, where row t is the weight slice tile t is routed to, whenever every routing word is
  nonnegative (the precondition's integer conjunct; the finiteness of the floats is never used: both programs form the
  same products and the same sum of them).

  The kernel clips each routing word into [0, 1023] on the host and hands the clipped words to its region as a table.
  Each of the 128 grid points serves eight tiles: per tile the body copies the weight slice its table word names into
  one of two scratch slots, multiplies the tile's activations by it, adds the bias row, scales by 30 and takes the sine.
  The reference adds 1024 to a negative routing word, gathers the weight slices with the start index clamped into
  [0, 1023], and does the same arithmetic as one batched product. On a nonnegative word the clip read unsigned and the
  clamp of the word read signed name the same slice (Proof/Words.lean), which joins the two sides.

  The modules: Proof/Spec.lean (the function), Proof/Words.lean and Proof/Nonneg.lean (the routing words and the
  precondition), Proof/KernelTable.lean and Proof/KernelIdealTable.lean (the table and the side conditions the body
  assumes of it, which hold for every memory), Proof/LibSlotRead.lean (a scratch slot read after whole-slot deliveries),
  Proof/KernelRunA.lean, Proof/KernelIdealRunA.lean, Proof/KernelFrame.lean and Proof/KernelIdealFrame.lean (the
  programs' frames), Proof/TilePayload.lean, Proof/BlockReads.lean, Proof/KernelBlock.lean and Proof/KernelArray.lean
  (a tile, a grid point's block, the whole result array), Proof/RefGather.lean and Proof/RefValue.lean (the reference).
-/
import proofs.«168333_j11982958756456_2_alg».proof.Defs
import proofs.«168333_j11982958756456_2_alg».proof.Proof.Gen.Kernel
import proofs.«168333_j11982958756456_2_alg».proof.Proof.Gen.KernelIdeal
import proofs.«168333_j11982958756456_2_alg».proof.Proof.Gen.ReferenceIdeal
import proofs.«168333_j11982958756456_2_alg».proof.Proof.Gen.Pre_finite_inputs
import proofs.«168333_j11982958756456_2_alg».proof.Proof.Gen.ReferenceIdeal.Run
import proofs.«168333_j11982958756456_2_alg».proof.Proof.Gen.ReferenceIdeal.Read
import proofs.«168333_j11982958756456_2_alg».proof.Proof.KernelFrame
import proofs.«168333_j11982958756456_2_alg».proof.Proof.KernelTable
import proofs.«168333_j11982958756456_2_alg».proof.Proof.KernelIdealFrame
import proofs.«168333_j11982958756456_2_alg».proof.Proof.KernelIdealTable
import proofs.«168333_j11982958756456_2_alg».proof.Proof.KernelArray
import proofs.«168333_j11982958756456_2_alg».proof.Proof.RefValue
import proofs.«168333_j11982958756456_2_alg».proof.Proof.Nonneg
import Idealize.ShloMosaic.Adequacy
import Idealize.ShloMosaic.Init

noncomputable section

namespace Cert.Proof

open Idealize.ShloMosaic Idealize.SL.Sem

/-- The word-level kernel runs and leaves its arguments alone: the table words it assumes in range are clipped. -/
theorem frame_k : Cert.frame_Kernel := fun m ρ _ =>
  Cert.Kernel.GenP.frame m ρ (Cert.Kernel.Table.ok m) (Cert.Kernel.Table.hyps m _)

/-- So does the kernel read on the extended reals. -/
theorem frame_ki : Cert.frame_KernelIdeal := fun m ρ _ =>
  Cert.KernelIdeal.GenP.frame m ρ (Cert.KernelIdeal.Table.ok m) (Cert.KernelIdeal.Table.hyps m _)

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of the argument arrays in their result. -/
theorem algebraic : Cert.algebraic_KernelIdeal_ReferenceIdeal := by
  intro m ρ m' ρ' hpre hagree
  have hnn : ∀ (c : Dev Cert.KernelIdeal.nD) (k : Cert.KernelIdeal.S1024.Idx),
      0 ≤ (m ((c.tc : Thread Cert.KernelIdeal.nD Cert.KernelIdeal.τ).loc Cert.KernelIdeal.main_arg3) k).toInt :=
    fun c k => Cert.MoeSin.Nonneg.nonneg_of_pre _ _ _ _ (hpre c) k
  refine ⟨fun c => Cert.KernelIdeal.ArrayValue.spec m c, Cert.KernelIdeal.ArrayValue.run m ρ hnn, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2]
  exact Cert.ReferenceIdeal.RefValue.ref_eq _ _ _ _ (hnn c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
